-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16384x256 : Shape := ⟨3, ![8, 16384, 256]⟩
abbrev S768x256 : Shape := ⟨2, ![768, 256]⟩
abbrev S256x256 : Shape := ⟨2, ![256, 256]⟩
abbrev S256 : Shape := ⟨1, ![256]⟩
abbrev S127 : Shape := ⟨1, ![127]⟩
abbrev S_ : Shape := ⟨0, ![]⟩

class Facts : Prop where
  bcast_S_S8x16384x256 : S_.BroadcastsInDim S8x16384x256 (![] : Fin 0 → Fin S8x16384x256.rank)
  reducesTo_S8x16384x256_S_d0_1_2 : S8x16384x256.ReducesTo [0, 1, 2] S_
  h_S_ : 0 < S_.numel
  bcast_S_S768x256 : S_.BroadcastsInDim S768x256 (![] : Fin 0 → Fin S768x256.rank)
  reducesTo_S768x256_S_d0_1 : S768x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S127 : S_.BroadcastsInDim S127 (![] : Fin 0 → Fin S127.rank)
  reducesTo_S127_S_d0 : S127.ReducesTo [0] S_

variable [Facts]

def fn_part1 {F : FTy → Type} [FloatOps F] (main_arg4 : FVec F S127 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S127 .f32 := Host.absf main_arg4
  let main_cst_6 : FVec F S_ .f32 := constant S_ .f32 0x7F800000#32
  let main_v20 : FVec F S127 .f32 := broadcastInDim S127 ![] bcast_S_S127 main_cst_6
  let main_v21 : IVec S127 1 := cmpf .olt main_v19 main_v20
  let main_c_7 : IVec S_ 1 := constantI S_ 1 1#1
  let main_v22 : IVec S_ 1 := (fun x v => Host.reduce IntOp.andi x v reducesTo_S127_S_d0 h_S_) main_v21 main_c_7
  let main_v23 : IVec S_ 1 := andi main_v18 main_v22
  main_v23

def fn {F : FTy → Type} [FloatOps F] (main_arg0 : FVec F S8x16384x256 .f32) (main_arg1 : FVec F S768x256 .f32) (main_arg2 : FVec F S256x256 .f32) (main_arg3 : FVec F S256 .f32) (main_arg4 : FVec F S127 .f32) : IVec S_ 1 :=
  let main_v0 : FVec F S8x16384x256 .f32 := Host.absf main_arg0
  let main_cst : FVec F S_ .f32 := constant S_ .f32 0x7F800000#32
  let main_v1 : FVec F S8x16384x256 .f32 := broadcastInDim S8x16384x256 ![] bcast_S_S8x16384x256 main_cst
  let main_v2 : IVec S8x16384x256 1 := cmpf .olt main_v0 main_v1
  let main_c : IVec S_ 1 := constantI S_ 1 1#1
  let main_v3 : IVec S_ 1 := (fun x v => Host.reduce IntOp.andi x v reducesTo_S8x16384x256_S_d0_1_2 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S8x16384x256 : Shape := ⟨3, ![8, 16384, 256]⟩
abbrev S768x256 : Shape := ⟨2, ![768, 256]⟩
abbrev S256x256 : Shape := ⟨2, ![256, 256]⟩
abbrev S256 : Shape := ⟨1, ![256]⟩
abbrev S127 : Shape := ⟨1, ![127]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S_ : Shape := ⟨0, ![]⟩
abbrev S64x64x1 : Shape := ⟨3, ![64, 64, 1]⟩
abbrev S256x768 : Shape := ⟨2, ![256, 768]⟩
abbrev S1x2048x256 : Shape := ⟨3, ![1, 2048, 256]⟩
abbrev S2048x256 : Shape := ⟨2, ![2048, 256]⟩
abbrev S2048x768 : Shape := ⟨2, ![2048, 768]⟩
abbrev S32x64x3x8x32 : Shape := ⟨5, ![32, 64, 3, 8, 32]⟩
abbrev S32x64x1x8x32 : Shape := ⟨5, ![32, 64, 1, 8, 32]⟩
abbrev S32x64x8x32 : Shape := ⟨4, ![32, 64, 8, 32]⟩
abbrev S32x64x1x32 : Shape := ⟨4, ![32, 64, 1, 32]⟩
abbrev S32x64x32 : Shape := ⟨3, ![32, 64, 32]⟩
abbrev S32x64x64 : Shape := ⟨3, ![32, 64, 64]⟩
abbrev S1x64x64 : Shape := ⟨3, ![1, 64, 64]⟩
abbrev S32x64 : Shape := ⟨2, ![32, 64]⟩
abbrev S32x64x1 : Shape := ⟨3, ![32, 64, 1]⟩
abbrev S1x256 : Shape := ⟨2, ![1, 256]⟩

abbrev nBuf : Space → Nat
  | .hbm => 31
  | .vmem => 8
  | .smem => 0
  | _ => 0

abbrev bufTy : (tb : Table) → Fin (tcTables nBuf tb) → BufTy
  | .hbm, ⟨0, _⟩ => ⟨S8x16384x256, .f32⟩
  | .hbm, ⟨1, _⟩ => ⟨S768x256, .f32⟩
  | .hbm, ⟨2, _⟩ => ⟨S256x256, .f32⟩
  | .hbm, ⟨3, _⟩ => ⟨S256, .f32⟩
  | .hbm, ⟨4, _⟩ => ⟨S127, .f32⟩
  | .hbm, ⟨5, _⟩ => ⟨S64, .i32⟩
  | .hbm, ⟨6, _⟩ => ⟨S1x64, .i32⟩
  | .hbm, ⟨7, _⟩ => ⟨S64x1, .i32⟩
  | .hbm, ⟨8, _⟩ => ⟨S64x64, .i32⟩
  | .hbm, ⟨9, _⟩ => ⟨S64x64, .i32⟩
  | .hbm, ⟨10, _⟩ => ⟨S64x64, .i32⟩
  | .hbm, ⟨11, _⟩ => ⟨S_, .i32⟩
  | .hbm, ⟨12, _⟩ => ⟨S64x64, .i32⟩
  | .hbm, ⟨13, _⟩ => ⟨S64x64, .i32⟩
  | .hbm, ⟨14, _⟩ => ⟨S_, .i32⟩
  | .hbm, ⟨15, _⟩ => ⟨S64x64, .i32⟩
  | .hbm, ⟨16, _⟩ => ⟨S64x64, .i32⟩
  | .hbm, ⟨17, _⟩ => ⟨S_, .i32⟩
  | .hbm, ⟨18, _⟩ => ⟨S64x64, .i32⟩
  | .hbm, ⟨19, _⟩ => ⟨S64x64, .i1⟩
  | .hbm, ⟨20, _⟩ => ⟨S_, .i32⟩
  | .hbm, ⟨21, _⟩ => ⟨S64x64, .i32⟩
  | .hbm, ⟨22, _⟩ => ⟨S64x64, .i32⟩
  | .hbm, ⟨23, _⟩ => ⟨S64x64, .i32⟩
  | .hbm, ⟨24, _⟩ => ⟨S64x64x1, .i32⟩
  | .hbm, ⟨25, _⟩ => ⟨S64x64, .f32⟩
  | .hbm, ⟨26, _⟩ => ⟨S256x768, .f32⟩
  | .hbm, ⟨27, _⟩ => ⟨S256x768, .bf16⟩
  | .hbm, ⟨28, _⟩ => ⟨S256x256, .f32⟩
  | .hbm, ⟨29, _⟩ => ⟨S256x256, .bf16⟩
  | .hbm, ⟨30, _⟩ => ⟨S8x16384x256, .f32⟩
  | .local _ .vmem, ⟨0, _⟩ => ⟨S1x2048x256, .f32⟩
  | .local _ .vmem, ⟨1, _⟩ => ⟨S1x2048x256, .f32⟩
  | .local _ .vmem, ⟨2, _⟩ => ⟨S256x768, .bf16⟩
  | .local _ .vmem, ⟨3, _⟩ => ⟨S256x256, .bf16⟩
  | .local _ .vmem, ⟨4, _⟩ => ⟨S256, .f32⟩
  | .local _ .vmem, ⟨5, _⟩ => ⟨S64x64, .f32⟩
  | .local _ .vmem, ⟨6, _⟩ => ⟨S1x2048x256, .f32⟩
  | .local _ .vmem, ⟨7, _⟩ => ⟨S1x2048x256, .f32⟩
  | _, _ => ⟨S8x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S64_S1x64_1 : S64.BroadcastsInDim S1x64 (![1] : Fin 1 → Fin S1x64.rank)
  bcast_S64_S64x1_0 : S64.BroadcastsInDim S64x1 (![0] : Fin 1 → Fin S64x1.rank)
  bcast_S1x64_S64x64_0_1 : S1x64.BroadcastsInDim S64x64 (![0, 1] : Fin 2 → Fin S64x64.rank)
  bcast_S64x1_S64x64_0_1 : S64x1.BroadcastsInDim S64x64 (![0, 1] : Fin 2 → Fin S64x64.rank)
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  transposes_S768x256_S256x768_1_0 : S768x256.Transposes [1, 0] S256x768
  bitsLt_bf16_f32 : FTy.bits .bf16 < FTy.bits .f32
  transposes_S256x256_S256x256_1_0 : S256x256.Transposes [1, 0] S256x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  shapeCasts_S2048x768_S32x64x3x8x32 : S2048x768.ShapeCasts S32x64x3x8x32
  slices_S32x64x3x8x32_o0_0_0_0_0_S32x64x1x8x32 : S32x64x3x8x32.Slices ![0, 0, 0, 0, 0] S32x64x1x8x32
  shapeCasts_S32x64x1x8x32_S32x64x8x32 : S32x64x1x8x32.ShapeCasts S32x64x8x32
  slices_S32x64x3x8x32_o0_0_1_0_0_S32x64x1x8x32 : S32x64x3x8x32.Slices ![0, 0, 1, 0, 0] S32x64x1x8x32
  slices_S32x64x3x8x32_o0_0_2_0_0_S32x64x1x8x32 : S32x64x3x8x32.Slices ![0, 0, 2, 0, 0] S32x64x1x8x32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S32x64x8x32_o0_0_0_0_S32x64x1x32 : S32x64x8x32.Slices ![0, 0, 0, 0] S32x64x1x32
  shapeCasts_S32x64x1x32_S32x64x32 : S32x64x1x32.ShapeCasts S32x64x32
  shapeCasts_S64x64_S1x64x64 : S64x64.ShapeCasts S1x64x64
  broadcasts_S1x64x64_S32x64x64 : S1x64x64.Broadcasts S32x64x64
  reduces_S32x64x64_S32x64 : S32x64x64.Reduces [2] S32x64
  shapeCasts_S32x64_S32x64x1 : S32x64.ShapeCasts S32x64x1
  broadcasts_S32x64x1_S32x64x64 : S32x64x1.Broadcasts S32x64x64
  slices_S32x64x8x32_o0_0_1_0_S32x64x1x32 : S32x64x8x32.Slices ![0, 0, 1, 0] S32x64x1x32
  slices_S32x64x8x32_o0_0_2_0_S32x64x1x32 : S32x64x8x32.Slices ![0, 0, 2, 0] S32x64x1x32
  slices_S32x64x8x32_o0_0_3_0_S32x64x1x32 : S32x64x8x32.Slices ![0, 0, 3, 0] S32x64x1x32
  slices_S32x64x8x32_o0_0_4_0_S32x64x1x32 : S32x64x8x32.Slices ![0, 0, 4, 0] S32x64x1x32
  slices_S32x64x8x32_o0_0_5_0_S32x64x1x32 : S32x64x8x32.Slices ![0, 0, 5, 0] S32x64x1x32
  slices_S32x64x8x32_o0_0_6_0_S32x64x1x32 : S32x64x8x32.Slices ![0, 0, 6, 0] S32x64x1x32
  slices_S32x64x8x32_o0_0_7_0_S32x64x1x32 : S32x64x8x32.Slices ![0, 0, 7, 0] S32x64x1x32
  shapeCasts_S32x64x32_S32x64x1x32 : S32x64x32.ShapeCasts S32x64x1x32
  concatenates_S32x64x1x32_S32x64x1x32_S32x64x1x32_S32x64x1x32_S32x64x1x32_S32x64x1x32_S32x64x1x32_S32x64x1x32_S32x64x8x32_d2 : Shape.Concatenates [S32x64x1x32, S32x64x1x32, S32x64x1x32, S32x64x1x32, S32x64x1x32, S32x64x1x32, S32x64x1x32, S32x64x1x32] S32x64x8x32 2
  shapeCasts_S32x64x8x32_S2048x256 : S32x64x8x32.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  shapeCasts_S2048x256_S1x2048x256 : S2048x256.ShapeCasts S1x2048x256
  gather_S127_S64x64x1_S64x64_n_0_n_n_0_2_1_wf : GatherDims.WF S127 S64x64x1 S64x64 [] [0] [] [0] [] 2 ![1]
  dot_S2048x256_S256x768_S2048x768_1_0_0_1_n_n_wf : DotDims.WF S2048x256 S256x768 S2048x768 [1] [0] [0] [1] [] []
  dot_S32x64x32_S32x64x32_S32x64x64_2_2_1_1_0_0_wf : DotDims.WF S32x64x32 S32x64x32 S32x64x64 [2] [2] [1] [1] [0] [0]
  dot_S32x64x64_S32x64x32_S32x64x32_2_1_1_2_0_0_wf : DotDims.WF S32x64x64 S32x64x32 S32x64x32 [2] [1] [1] [2] [0] [0]
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x16384x256.size a
  hwx0_0 : ∀ i : grid0.Coords, EltTy.bits .f32 = 32 ∨ (Rect.block (s := S8x16384x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .bf16 = 32 ∨ (Rect.block (s := S256x768) S256x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x256.size a ≤ S8x16384x256.size a
  hwx0_5 : ∀ i : grid0.Coords, EltTy.bits .f32 = 32 ∨ (Rect.block (s := S8x16384x256) S1x2048x256.size (cc0_transform_5 i) (hinb0_5 i)).WholeWords (EltTy.packing .f32)

variable [Facts₀]

def gather_S127_S64x64x1_S64x64_n_0_n_n_0_2_1 : GatherDims S127 S64x64x1 S64x64 where
  offsetDims := []
  collapsedSliceDims := [0]
  operandBatchingDims := []
  startIndicesBatchingDims := []
  startIndexMap := [0]
  indexVectorDim := 2
  sliceSizes := ![1]
  wf := gather_S127_S64x64x1_S64x64_n_0_n_n_0_2_1_wf
def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf
def dot_S32x64x32_S32x64x32_S32x64x64_2_2_1_1_0_0 : DotDims S32x64x32 S32x64x32 S32x64x64 where
  lhsContracting := [2]
  rhsContracting := [2]
  lhsNonContracting := [1]
  rhsNonContracting := [1]
  lhsBatch := [0]
  rhsBatch := [0]
  wf := dot_S32x64x32_S32x64x32_S32x64x64_2_2_1_1_0_0_wf
def dot_S32x64x64_S32x64x32_S32x64x32_2_1_1_2_0_0 : DotDims S32x64x64 S32x64x32 S32x64x32 where
  lhsContracting := [2]
  rhsContracting := [1]
  lhsNonContracting := [1]
  rhsNonContracting := [2]
  lhsBatch := [0]
  rhsBatch := [0]
  wf := dot_S32x64x64_S32x64x32_S32x64x32_2_1_1_2_0_0_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x16384x256 : Shape := ⟨3, ![8, 16384, 256]⟩
abbrev S768x256 : Shape := ⟨2, ![768, 256]⟩
abbrev S256x256 : Shape := ⟨2, ![256, 256]⟩
abbrev S256 : Shape := ⟨1, ![256]⟩
abbrev S127 : Shape := ⟨1, ![127]⟩
abbrev S8x256x64x256 : Shape := ⟨4, ![8, 256, 64, 256]⟩
abbrev S8x256x64x768 : Shape := ⟨4, ![8, 256, 64, 768]⟩
abbrev S8x256x64x3x8x32 : Shape := ⟨6, ![8, 256, 64, 3, 8, 32]⟩
abbrev S8x256x64x1x8x32 : Shape := ⟨6, ![8, 256, 64, 1, 8, 32]⟩
abbrev S8x256x64x8x32 : Shape := ⟨5, ![8, 256, 64, 8, 32]⟩
abbrev S8x256x8x64x32 : Shape := ⟨5, ![8, 256, 8, 64, 32]⟩
abbrev S8x256x8x64x64 : Shape := ⟨5, ![8, 256, 8, 64, 64]⟩
abbrev S_ : Shape := ⟨0, ![]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S1x1x1x64x64 : Shape := ⟨5, ![1, 1, 1, 64, 64]⟩
abbrev S8x256x8x64 : Shape := ⟨4, ![8, 256, 8, 64]⟩
abbrev S8x256x8x64x1 : Shape := ⟨5, ![8, 256, 8, 64, 1]⟩
abbrev S1x1x1x256 : Shape := ⟨4, ![1, 1, 1, 256]⟩

abbrev nBuf : Space → Nat
  | .hbm => 67
  | .vmem => 0
  | .smem => 0
  | _ => 0

abbrev bufTy : (tb : Table) → Fin (tcTables nBuf tb) → BufTy
  | .hbm, ⟨0, _⟩ => ⟨S8x16384x256, .f32⟩
  | .hbm, ⟨1, _⟩ => ⟨S768x256, .f32⟩
  | .hbm, ⟨2, _⟩ => ⟨S256x256, .f32⟩
  | .hbm, ⟨3, _⟩ => ⟨S256, .f32⟩
  | .hbm, ⟨4, _⟩ => ⟨S127, .f32⟩
  | .hbm, ⟨5, _⟩ => ⟨S8x256x64x256, .f32⟩
  | .hbm, ⟨6, _⟩ => ⟨S8x256x64x768, .f32⟩
  | .hbm, ⟨7, _⟩ => ⟨S8x256x64x3x8x32, .f32⟩
  | .hbm, ⟨8, _⟩ => ⟨S8x256x64x1x8x32, .f32⟩
  | .hbm, ⟨9, _⟩ => ⟨S8x256x64x8x32, .f32⟩
  | .hbm, ⟨10, _⟩ => ⟨S8x256x8x64x32, .f32⟩
  | .hbm, ⟨11, _⟩ => ⟨S8x256x64x1x8x32, .f32⟩
  | .hbm, ⟨12, _⟩ => ⟨S8x256x64x8x32, .f32⟩
  | .hbm, ⟨13, _⟩ => ⟨S8x256x8x64x32, .f32⟩
  | .hbm, ⟨14, _⟩ => ⟨S8x256x64x1x8x32, .f32⟩
  | .hbm, ⟨15, _⟩ => ⟨S8x256x64x8x32, .f32⟩
  | .hbm, ⟨16, _⟩ => ⟨S8x256x8x64x32, .f32⟩
  | .hbm, ⟨17, _⟩ => ⟨S8x256x8x64x64, .f32⟩
  | .hbm, ⟨18, _⟩ => ⟨S_, .f32⟩
  | .hbm, ⟨19, _⟩ => ⟨S8x256x8x64x64, .f32⟩
  | .hbm, ⟨20, _⟩ => ⟨S8x256x8x64x64, .f32⟩
  | .hbm, ⟨21, _⟩ => ⟨S64, .i32⟩
  | .hbm, ⟨22, _⟩ => ⟨S1x64, .i32⟩
  | .hbm, ⟨23, _⟩ => ⟨S64x1, .i32⟩
  | .hbm, ⟨24, _⟩ => ⟨S64x64, .i32⟩
  | .hbm, ⟨25, _⟩ => ⟨S64x64, .i32⟩
  | .hbm, ⟨26, _⟩ => ⟨S64x64, .i32⟩
  | .hbm, ⟨27, _⟩ => ⟨S_, .i32⟩
  | .hbm, ⟨28, _⟩ => ⟨S64x64, .i32⟩
  | .hbm, ⟨29, _⟩ => ⟨S64x64, .i32⟩
  | .hbm, ⟨30, _⟩ => ⟨S_, .i32⟩
  | .hbm, ⟨31, _⟩ => ⟨S64x64, .i32⟩
  | .hbm, ⟨32, _⟩ => ⟨S64x64, .i32⟩
  | .hbm, ⟨33, _⟩ => ⟨S_, .i32⟩
  | .hbm, ⟨34, _⟩ => ⟨S64x64, .i32⟩
  | .hbm, ⟨35, _⟩ => ⟨S64x64, .i1⟩
  | .hbm, ⟨36, _⟩ => ⟨S_, .i32⟩
  | .hbm, ⟨37, _⟩ => ⟨S64x64, .i32⟩
  | .hbm, ⟨38, _⟩ => ⟨S64x64, .i32⟩
  | .hbm, ⟨39, _⟩ => ⟨S64x64, .i32⟩
  | .hbm, ⟨40, _⟩ => ⟨S64x64x1, .i32⟩
  | .hbm, ⟨41, _⟩ => ⟨S64x64, .f32⟩
  | .hbm, ⟨42, _⟩ => ⟨S1x1x1x64x64, .f32⟩
  | .hbm, ⟨43, _⟩ => ⟨S8x256x8x64x64, .f32⟩
  | .hbm, ⟨44, _⟩ => ⟨S8x256x8x64x64, .f32⟩
  | .hbm, ⟨45, _⟩ => ⟨S_, .f32⟩
  | .hbm, ⟨46, _⟩ => ⟨S8x256x8x64, .f32⟩
  | .hbm, ⟨47, _⟩ => ⟨S_, .f32⟩
  | .hbm, ⟨48, _⟩ => ⟨S8x256x8x64, .f32⟩
  | .hbm, ⟨49, _⟩ => ⟨S8x256x8x64, .f32⟩
  | .hbm, ⟨50, _⟩ => ⟨S8x256x8x64x1, .f32⟩
  | .hbm, ⟨51, _⟩ => ⟨S8x256x8x64x64, .f32⟩
  | .hbm, ⟨52, _⟩ => ⟨S8x256x8x64x64, .f32⟩
  | .hbm, ⟨53, _⟩ => ⟨S8x256x8x64x64, .f32⟩
  | .hbm, ⟨54, _⟩ => ⟨S_, .f32⟩
  | .hbm, ⟨55, _⟩ => ⟨S8x256x8x64, .f32⟩
  | .hbm, ⟨56, _⟩ => ⟨S8x256x8x64x1, .f32⟩
  | .hbm, ⟨57, _⟩ => ⟨S8x256x8x64x64, .f32⟩
  | .hbm, ⟨58, _⟩ => ⟨S8x256x8x64x64, .f32⟩
  | .hbm, ⟨59, _⟩ => ⟨S8x256x8x64x32, .f32⟩
  | .hbm, ⟨60, _⟩ => ⟨S8x256x64x8x32, .f32⟩
  | .hbm, ⟨61, _⟩ => ⟨S8x256x64x256, .f32⟩
  | .hbm, ⟨62, _⟩ => ⟨S8x256x64x256, .f32⟩
  | .hbm, ⟨63, _⟩ => ⟨S1x1x1x256, .f32⟩
  | .hbm, ⟨64, _⟩ => ⟨S8x256x64x256, .f32⟩
  | .hbm, ⟨65, _⟩ => ⟨S8x256x64x256, .f32⟩
  | .hbm, ⟨66, _⟩ => ⟨S8x16384x256, .f32⟩
  | _, _ => ⟨S8x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_v21 : Ref sig .tc := ⟨.hbm, 28, rfl⟩
abbrev main_v22 : Ref sig .tc := ⟨.hbm, 29, rfl⟩
abbrev main_c_0 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]

class Facts₀ : Prop where
  shapeCasts_S8x16384x256_S8x256x64x256 : S8x16384x256.ShapeCasts S8x256x64x256
  shapeCasts_S8x256x64x768_S8x256x64x3x8x32 : S8x256x64x768.ShapeCasts S8x256x64x3x8x32
  slices_S8x256x64x3x8x32_S8x256x64x1x8x32_0_0_0_0_0_0 : S8x256x64x3x8x32.Slices ![0, 0, 0, 0, 0, 0] S8x256x64x1x8x32
  shapeCasts_S8x256x64x1x8x32_S8x256x64x8x32 : S8x256x64x1x8x32.ShapeCasts S8x256x64x8x32
  transposes_S8x256x64x8x32_S8x256x8x64x32_0_1_3_2_4 : S8x256x64x8x32.Transposes [0, 1, 3, 2, 4] S8x256x8x64x32
  slices_S8x256x64x3x8x32_S8x256x64x1x8x32_0_0_0_1_0_0 : S8x256x64x3x8x32.Slices ![0, 0, 0, 1, 0, 0] S8x256x64x1x8x32
  slices_S8x256x64x3x8x32_S8x256x64x1x8x32_0_0_0_2_0_0 : S8x256x64x3x8x32.Slices ![0, 0, 0, 2, 0, 0] S8x256x64x1x8x32
  bcast_S_S8x256x8x64x64 : S_.BroadcastsInDim S8x256x8x64x64 (![] : Fin 0 → Fin S8x256x8x64x64.rank)
  bcast_S64_S1x64_1 : S64.BroadcastsInDim S1x64 (![1] : Fin 1 → Fin S1x64.rank)
  bcast_S64_S64x1_0 : S64.BroadcastsInDim S64x1 (![0] : Fin 1 → Fin S64x1.rank)
  bcast_S1x64_S64x64_0_1 : S1x64.BroadcastsInDim S64x64 (![0, 1] : Fin 2 → Fin S64x64.rank)
  bcast_S64x1_S64x64_0_1 : S64x1.BroadcastsInDim S64x64 (![0, 1] : Fin 2 → Fin S64x64.rank)
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  bcast_S64x64_S1x1x1x64x64_3_4 : S64x64.BroadcastsInDim S1x1x1x64x64 (![3, 4] : Fin 2 → Fin S1x1x1x64x64.rank)
  bcast_S1x1x1x64x64_S8x256x8x64x64_0_1_2_3_4 : S1x1x1x64x64.BroadcastsInDim S8x256x8x64x64 (![0, 1, 2, 3, 4] : Fin 5 → Fin S8x256x8x64x64.rank)
  reducesTo_S8x256x8x64x64_S8x256x8x64_d4 : S8x256x8x64x64.ReducesTo [4] S8x256x8x64
  h_S_ : 0 < S_.numel
  bcast_S_S8x256x8x64 : S_.BroadcastsInDim S8x256x8x64 (![] : Fin 0 → Fin S8x256x8x64.rank)
  bcast_S8x256x8x64_S8x256x8x64x1_0_1_2_3 : S8x256x8x64.BroadcastsInDim S8x256x8x64x1 (![0, 1, 2, 3] : Fin 4 → Fin S8x256x8x64x1.rank)
  bcast_S8x256x8x64x1_S8x256x8x64x64_0_1_2_3_4 : S8x256x8x64x1.BroadcastsInDim S8x256x8x64x64 (![0, 1, 2, 3, 4] : Fin 5 → Fin S8x256x8x64x64.rank)
  transposes_S8x256x8x64x32_S8x256x64x8x32_0_1_3_2_4 : S8x256x8x64x32.Transposes [0, 1, 3, 2, 4] S8x256x64x8x32
  shapeCasts_S8x256x64x8x32_S8x256x64x256 : S8x256x64x8x32.ShapeCasts S8x256x64x256
  bcast_S256_S1x1x1x256_3 : S256.BroadcastsInDim S1x1x1x256 (![3] : Fin 1 → Fin S1x1x1x256.rank)
  bcast_S1x1x1x256_S8x256x64x256_0_1_2_3 : S1x1x1x256.BroadcastsInDim S8x256x64x256 (![0, 1, 2, 3] : Fin 4 → Fin S8x256x64x256.rank)
  shapeCasts_S8x256x64x256_S8x16384x256 : S8x256x64x256.ShapeCasts S8x16384x256
  dot_S8x256x64x256_S768x256_S8x256x64x768_3_1_012_0_n_n_wf : DotDims.WF S8x256x64x256 S768x256 S8x256x64x768 [3] [1] [0, 1, 2] [0] [] []
  dot_S8x256x8x64x32_S8x256x8x64x32_S8x256x8x64x64_4_4_3_3_012_012_wf : DotDims.WF S8x256x8x64x32 S8x256x8x64x32 S8x256x8x64x64 [4] [4] [3] [3] [0, 1, 2] [0, 1, 2]
  gather_S127_S64x64x1_S64x64_n_0_n_n_0_2_1_wf : GatherDims.WF S127 S64x64x1 S64x64 [] [0] [] [0] [] 2 ![1]
  dot_S8x256x8x64x64_S8x256x8x64x32_S8x256x8x64x32_4_3_3_4_012_012_wf : DotDims.WF S8x256x8x64x64 S8x256x8x64x32 S8x256x8x64x32 [4] [3] [3] [4] [0, 1, 2] [0, 1, 2]
  dot_S8x256x64x256_S256x256_S8x256x64x256_3_1_012_0_n_n_wf : DotDims.WF S8x256x64x256 S256x256 S8x256x64x256 [3] [1] [0, 1, 2] [0] [] []

variable [Facts₀]

def dot_S8x256x64x256_S768x256_S8x256x64x768_3_1_012_0_n_n : DotDims S8x256x64x256 S768x256 S8x256x64x768 where
  lhsContracting := [3]
  rhsContracting := [1]
  lhsNonContracting := [0, 1, 2]
  rhsNonContracting := [0]
  lhsBatch := []
  rhsBatch := []
  wf := dot_S8x256x64x256_S768x256_S8x256x64x768_3_1_012_0_n_n_wf
def dot_S8x256x8x64x32_S8x256x8x64x32_S8x256x8x64x64_4_4_3_3_012_012 : DotDims S8x256x8x64x32 S8x256x8x64x32 S8x256x8x64x64 where
  lhsContracting := [4]
  rhsContracting := [4]
  lhsNonContracting := [3]
  rhsNonContracting := [3]
  lhsBatch := [0, 1, 2]
  rhsBatch := [0, 1, 2]
  wf := dot_S8x256x8x64x32_S8x256x8x64x32_S8x256x8x64x64_4_4_3_3_012_012_wf
def gather_S127_S64x64x1_S64x64_n_0_n_n_0_2_1 : GatherDims S127 S64x64x1 S64x64 where
  offsetDims := []
  collapsedSliceDims := [0]
  operandBatchingDims := []
  startIndicesBatchingDims := []
  startIndexMap := [0]
  indexVectorDim := 2
  sliceSizes := ![1]
  wf := gather_S127_S64x64x1_S64x64_n_0_n_n_0_2_1_wf
def dot_S8x256x8x64x64_S8x256x8x64x32_S8x256x8x64x32_4_3_3_4_012_012 : DotDims S8x256x8x64x64 S8x256x8x64x32 S8x256x8x64x32 where
  lhsContracting := [4]
  rhsContracting := [3]
  lhsNonContracting := [3]
  rhsNonContracting := [4]
  lhsBatch := [0, 1, 2]
  rhsBatch := [0, 1, 2]
  wf := dot_S8x256x8x64x64_S8x256x8x64x32_S8x256x8x64x32_4_3_3_4_012_012_wf
def dot_S8x256x64x256_S256x256_S8x256x64x256_3_1_012_0_n_n : DotDims S8x256x64x256 S256x256 S8x256x64x256 where
  lhsContracting := [3]
  rhsContracting := [1]
  lhsNonContracting := [0, 1, 2]
  rhsNonContracting := [0]
  lhsBatch := []
  rhsBatch := []
  wf := dot_S8x256x64x256_S256x256_S8x256x64x256_3_1_012_0_n_n_wf

class Facts : Prop extends Facts₀ where

variable [Facts]
-- ==== Proof.Spec.lean ====
/-
  Local-window multi-head attention on the extended reals, as ONE function of a window's rows.

  A window is 64 consecutive tokens with 256 channels each. The projection `Wq : 768 × 256` sends a token to
  3 · 8 · 32 numbers: query, key and value (the outer factor 3) of 8 heads of 32 coordinates. Inside a head, the
  logit of query token `q` against key token `k` is the dot product of their 32 coordinates times a scale word,
  plus a bias that depends on `(q, k)` only. A row of logits is turned into weights by the usual stable softmax:
  subtract the row's maximum (taken from the word for minus infinity), exponentiate, divide by the sum. The head's
  output at `(q, d)` is the weighted sum of the value tokens' coordinate `d`. The 8 heads' outputs are laid side by
  side (channel `c` is coordinate `c % 32` of head `c / 32`) and sent through `Wp : 256 × 256` plus a bias.

  Nothing here needs finiteness: the two programs that are compared against this specification compute exactly these
  sums, maxima, exponentials and quotients, only laid out differently, so no law beyond re-indexing a finite sum is used.
-/
import Idealize.ShloMosaic.PureOps.Ideal

noncomputable section

namespace Cert.WinAttn

open Idealize.ShloMosaic

/-- The scale word both programs multiply the logits by (the f32 nearest to 32^(-1/2)); never evaluated. -/
abbrev sc : EReal := Ideal.ofBits .f32 0x3E3504F3#32
/-- The word a row maximum starts from (minus infinity); never evaluated. -/
abbrev ninf : EReal := Ideal.ofBits .f32 0xFF800000#32

/-- Column `s·256 + h·32 + d` of the 768 projected numbers: part `s` (query, key, value), head `h`, coordinate `d`. -/
def colIx (s : Fin 3) (h : Fin 8) (d : Fin 32) : Fin 768 :=
  ⟨s.val * 256 + h.val * 32 + d.val, by have := s.isLt; have := h.isLt; have := d.isLt; omega⟩

/-- Row `n·64 + q` of a batch row's 16384 tokens: token `q` of window `n`. -/
def rowIx (n : Fin 256) (q : Fin 64) : Fin 16384 :=
  ⟨n.val * 64 + q.val, by have := n.isLt; have := q.isLt; omega⟩

/-- The head a channel belongs to, and its coordinate inside the head. -/
def headOf (c : Fin 256) : Fin 8 := ⟨c.val / 32, by have := c.isLt; omega⟩
def coordOf (c : Fin 256) : Fin 32 := ⟨c.val % 32, by omega⟩

/-- One row of logits: query row `qr` against every key row, scaled, plus the bias row. -/
def logits (qr : Fin 32 → EReal) (K : Fin 64 → Fin 32 → EReal) (br : Fin 64 → EReal) : Fin 64 → EReal :=
  fun k => (∑ d : Fin 32, qr d * K k d) * sc + br k

/-- The row's maximum, folded from minus infinity (and once more compared with it, as both programs do). -/
def rmax (row : Fin 64 → EReal) : EReal :=
  max ninf ((Finset.univ : Finset (Fin 64)).fold max ninf row)

/-- The unnormalised softmax weight of entry `k`. -/
def ew (row : Fin 64 → EReal) (k : Fin 64) : EReal := Ideal.exp (row k - rmax row)

/-- The softmax weight of entry `k`. -/
def sm (row : Fin 64 → EReal) (k : Fin 64) : EReal := Ideal.div (ew row k) (∑ k' : Fin 64, ew row k')

/-- One head of one window: queries, keys and values are 64 × 32, the bias 64 × 64. -/
def head (Q K V : Fin 64 → Fin 32 → EReal) (B : Fin 64 → Fin 64 → EReal) (q : Fin 64) (d : Fin 32) : EReal :=
  ∑ k : Fin 64, sm (logits (Q q) K (B q)) k * V k d

/-- A window token's projected number `j`. -/
def qkvW (Xw : Fin 64 → Fin 256 → EReal) (Wq : Fin 768 → Fin 256 → EReal) (q : Fin 64) (j : Fin 768) : EReal :=
  ∑ c : Fin 256, Xw q c * Wq j c

/-- Head `h` of the window whose rows are `Xw`, at token `q` and coordinate `d`. -/
def attnW (Xw : Fin 64 → Fin 256 → EReal) (Wq : Fin 768 → Fin 256 → EReal) (B : Fin 64 → Fin 64 → EReal)
    (h : Fin 8) (q : Fin 64) (d : Fin 32) : EReal :=
  head (fun q' d' => qkvW Xw Wq q' (colIx 0 h d')) (fun k d' => qkvW Xw Wq k (colIx 1 h d'))
    (fun k d' => qkvW Xw Wq k (colIx 2 h d')) B q d

/-- The output projection of one token's 256 attention channels. -/
def projRow (A : Fin 256 → EReal) (Wp : Fin 256 → Fin 256 → EReal) (bp : Fin 256 → EReal) (o : Fin 256) : EReal :=
  (∑ c : Fin 256, A c * Wp o c) + bp o

/-- The whole layer on one window: output channel `o` of token `q`. -/
def outW (Xw : Fin 64 → Fin 256 → EReal) (Wq : Fin 768 → Fin 256 → EReal) (Wp : Fin 256 → Fin 256 → EReal)
    (bp : Fin 256 → EReal) (B : Fin 64 → Fin 64 → EReal) (q : Fin 64) (o : Fin 256) : EReal :=
  projRow (fun c => attnW Xw Wq B (headOf c) q (coordOf c)) Wp bp o

end Cert.WinAttn

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.KQkv.lean ====
/-
  The kernel's projected block, read at an entry.

  A grid point's input block is 2048 token rows of 256 channels: 32 windows of 64 tokens, row `n·64 + q` being token `q`
  of window `n`. The body multiplies it by the 256 × 768 weight block and views the 768 result columns as
  3 × 8 × 32 (part, head, coordinate: column `s·256 + h·32 + d`). So the entry (n, q, s, h, d) of that view is the
  sum over the channel `c` of the block's entry (row `n·64 + q`, `c`) times the weight block's entry (`c`, column).
  The three slices `s = 0, 1, 2` (queries, keys, values) are that entry with `s` fixed.
-/
import proofs.«172021_j62835371541012_1_alg».proof.Proof.Gen.KernelIdeal.Skeleton
import proofs.«172021_j62835371541012_1_alg».proof.Proof.Spec
import proofs.«172021_j62835371541012_1_alg».proof.Proof.LibPlainDot
import Idealize.ShloMosaic.Lib.ValueIdx
import Idealize.ShloMosaic.Lib.Pipeline.Value

set_option maxRecDepth 16384

noncomputable section

namespace Cert.KSide

open Cert.KernelIdeal Cert.KernelIdeal.Gen Idealize.ShloMosaic Idealize.ShloMosaic.ValueIdx Cert.WinAttn

/-- Row `n·64 + q` of a block of 32 windows: token `q` of the block's window `n`. -/
def blkRow (n : Fin 32) (q : Fin 64) : Fin 2048 :=
  ⟨n.val * 64 + q.val, by have := n.isLt; have := q.isLt; omega⟩

/-- The projected block at (window, token, part, head, coordinate): a sum over the 256 channels. -/
theorem pay2_at (v0 : Vec Ideal S1x2048x256 .f32) (v3 : Vec Ideal S256x768 .bf16)
    (n : Fin 32) (q : Fin 64) (s : Fin 3) (h : Fin 8) (d : Fin 32) :
    k0_pay2 (F := Ideal) v0 v3 (ix5 n q s h d)
      = ∑ c : Fin 256, v0 (ix3 (0 : Fin 1) (blkRow n q) c) * v3 (ix2 c (colIx s h d)) := by
  unfold k0_pay2
  refine (shapeCast_apply _ shapeCasts_S2048x768_S32x64x3x8x32 (ix5 n q s h d) (ix2 (blkRow n q) (colIx s h d)) ?_).trans ?_
  · rw [Shape.rowMajor_val_two, Shape.rowMajor_val_five]
    show (n.val * 64 + q.val) * 768 + (s.val * 256 + h.val * 32 + d.val)
      = (((n.val * 64 + q.val) * 3 + s.val) * 8 + h.val) * 32 + d.val
    omega
  · refine (Cert.PlainDot.matmul_zero_plain_apply (M := 2048) (K := 256) (N := 768) none _ _ (blkRow n q) (colIx s h d)).trans ?_
    refine Finset.sum_congr rfl fun c _ => ?_
    congr 1
    · show shapeCast S2048x256 v0 shapeCasts_S1x2048x256_S2048x256 (ix2 (blkRow n q) c) = _
      refine shapeCast_apply v0 shapeCasts_S1x2048x256_S2048x256 (ix2 (blkRow n q) c) (ix3 (0 : Fin 1) (blkRow n q) c) ?_
      rw [Shape.rowMajor_val_three, Shape.rowMajor_val_two]
      show (0 * 2048 + (n.val * 64 + q.val)) * 256 + c.val = (n.val * 64 + q.val) * 256 + c.val
      omega
    · show shapeCast S256x768 v3 shapeCasts_S256x768_S256x768 (ix2 c (colIx s h d)) = _
      rw [shapeCast_self]

/-- Slice `s` of the projected block with its unit axis dropped, at (window, token, head, coordinate). -/
theorem slice_at (s : Fin 3) (hs : S32x64x3x8x32.Slices ![0, 0, s.val, 0, 0] S32x64x1x8x32)
    (y : FVec Ideal S32x64x3x8x32 .f32) (n : Fin 32) (q : Fin 64) (h : Fin 8) (d : Fin 32) :
    shapeCast S32x64x8x32 (extractStridedSlice S32x64x1x8x32 ![0, 0, s.val, 0, 0] y hs) shapeCasts_S32x64x1x8x32_S32x64x8x32 (ix4 n q h d)
      = y (ix5 n q s h d) := by
  refine (shapeCast_apply _ shapeCasts_S32x64x1x8x32_S32x64x8x32 (ix4 n q h d) (ix5 n q (0 : Fin 1) h d) ?_).trans ?_
  · rw [Shape.rowMajor_val_five, Shape.rowMajor_val_four]
    show (((n.val * 64 + q.val) * 1 + 0) * 8 + h.val) * 32 + d.val = ((n.val * 64 + q.val) * 8 + h.val) * 32 + d.val
    omega
  · refine extractStridedSlice_apply _ y hs (ix5 n q (0 : Fin 1) h d) (ix5 n q s h d) fun a => ?_
    match a with
    | ⟨0, _⟩ => show n.val = 0 + n.val; omega
    | ⟨1, _⟩ => show q.val = 0 + q.val; omega
    | ⟨2, _⟩ => show s.val = s.val + 0; omega
    | ⟨3, _⟩ => show h.val = 0 + h.val; omega
    | ⟨4, _⟩ => show d.val = 0 + d.val; omega

/-- The block's queries at (window, token, head, coordinate). -/
theorem pay3_at (v0 : Vec Ideal S1x2048x256 .f32) (v3 : Vec Ideal S256x768 .bf16) (n : Fin 32) (q : Fin 64) (h : Fin 8) (d : Fin 32) :
    k0_pay3 (F := Ideal) v0 v3 (ix4 n q h d)
      = ∑ c : Fin 256, v0 (ix3 (0 : Fin 1) (blkRow n q) c) * v3 (ix2 c (colIx 0 h d)) :=
  (slice_at 0 slices_S32x64x3x8x32_o0_0_0_0_0_S32x64x1x8x32 (k0_pay2 v0 v3) n q h d).trans (pay2_at v0 v3 n q 0 h d)

/-- The block's keys. -/
theorem pay4_at (v0 : Vec Ideal S1x2048x256 .f32) (v3 : Vec Ideal S256x768 .bf16) (n : Fin 32) (q : Fin 64) (h : Fin 8) (d : Fin 32) :
    k0_pay4 (F := Ideal) v0 v3 (ix4 n q h d)
      = ∑ c : Fin 256, v0 (ix3 (0 : Fin 1) (blkRow n q) c) * v3 (ix2 c (colIx 1 h d)) :=
  (slice_at 1 slices_S32x64x3x8x32_o0_0_1_0_0_S32x64x1x8x32 (k0_pay2 v0 v3) n q h d).trans (pay2_at v0 v3 n q 1 h d)

/-- The block's values. -/
theorem pay5_at (v0 : Vec Ideal S1x2048x256 .f32) (v3 : Vec Ideal S256x768 .bf16) (n : Fin 32) (q : Fin 64) (h : Fin 8) (d : Fin 32) :
    k0_pay5 (F := Ideal) v0 v3 (ix4 n q h d)
      = ∑ c : Fin 256, v0 (ix3 (0 : Fin 1) (blkRow n q) c) * v3 (ix2 c (colIx 2 h d)) :=
  (slice_at 2 slices_S32x64x3x8x32_o0_0_2_0_0_S32x64x1x8x32 (k0_pay2 v0 v3) n q h d).trans (pay2_at v0 v3 n q 2 h d)

end Cert.KSide

end
-- ==== Proof.KProj.lean ====
/-
  The kernel's last stage, read at an entry.

  The eight heads' outputs, each [32 windows, 64 tokens, 32 coordinates], are given a unit axis and laid side by side
  along it into [32, 64, 8, 32]; that array is viewed as [2048, 256] — row `n·64 + q` is token `q` of window `n`, and
  channel `c` is coordinate `c % 32` of head `c / 32` — and multiplied by the 256 × 256 weight block, and the bias
  vector is added to every row. So the entry (row `n·64 + q`, `o`) is the sum over the channel `c` of head
  `c / 32`'s output at (n, q, `c % 32`) times the weight block's entry (`c`, `o`), plus the bias at `o`.
-/
import proofs.«172021_j62835371541012_1_alg».proof.Proof.KQkv

set_option maxRecDepth 16384

noncomputable section

namespace Cert.KSide

open Cert.KernelIdeal Cert.KernelIdeal.Gen Idealize.ShloMosaic Idealize.ShloMosaic.ValueIdx Cert.WinAttn

/-- A head's output given a unit axis: the entry (n, q, 0, d) is the entry (n, q, d). -/
theorem addUnit_at (H : FVec Ideal S32x64x32 .f32) (n : Fin 32) (q : Fin 64) (d : Fin 32) :
    shapeCast S32x64x1x32 H shapeCasts_S32x64x32_S32x64x1x32 (ix4 n q (0 : Fin 1) d) = H (ix3 n q d) := by
  refine shapeCast_apply H shapeCasts_S32x64x32_S32x64x1x32 (ix4 n q (0 : Fin 1) d) (ix3 n q d) ?_
  rw [Shape.rowMajor_val_three, Shape.rowMajor_val_four]
  show (n.val * 64 + q.val) * 32 + d.val = ((n.val * 64 + q.val) * 1 + 0) * 32 + d.val
  omega

/-- The bias vector laid over every row: the entry (r, o) is the vector's entry `o`. -/
theorem biasRow_at (v253 : Vec Ideal S256 .f32) (r : Fin 2048) (o : Fin 256) :
    broadcastTo S2048x256 (shapeCast S1x256 v253 shapeCasts_S256_S1x256) broadcasts_S1x256_S2048x256 (ix2 r o) = v253 (ix1 o) := by
  refine (broadcastTo_apply _ broadcasts_S1x256_S2048x256 (ix2 r o) (ix2 (0 : Fin 1) o) (fun a => ?_)).trans ?_
  · match a with
    | ⟨0, _⟩ => show 0 = if (1 : Nat) = 1 then 0 else r.val; rw [if_pos rfl]
    | ⟨1, _⟩ => show o.val = if (256 : Nat) = 1 then 0 else o.val; rw [if_neg (by decide)]
  · refine shapeCast_apply v253 shapeCasts_S256_S1x256 (ix2 (0 : Fin 1) o) (ix1 o) ?_
    rw [Shape.rowMajor_val_one, Shape.rowMajor_val_two]
    show o.val = 0 * 256 + o.val
    omega

/-- Eight pieces [32, 64, 1, 32] laid side by side along their unit axis: the entry (n, q, h, d) of the stack is piece
    `h`'s entry (n, q, 0, d). -/
theorem stack8_at (P0 P1 P2 P3 P4 P5 P6 P7 : FVec Ideal S32x64x1x32 .f32)
    (hc : Shape.Concatenates ([(⟨S32x64x1x32, P0⟩ : (s : Shape) × (s.Idx → Ideal .f32)), ⟨S32x64x1x32, P1⟩, ⟨S32x64x1x32, P2⟩, ⟨S32x64x1x32, P3⟩, ⟨S32x64x1x32, P4⟩, ⟨S32x64x1x32, P5⟩, ⟨S32x64x1x32, P6⟩, ⟨S32x64x1x32, P7⟩].map (·.1)) S32x64x8x32 2)
    (n : Fin 32) (q : Fin 64) (h : Fin 8) (d : Fin 32) (B : Fin 8 → EReal)
    (e0 : P0 (ix4 n q (0 : Fin 1) d) = B 0) (e1 : P1 (ix4 n q (0 : Fin 1) d) = B 1) (e2 : P2 (ix4 n q (0 : Fin 1) d) = B 2)
    (e3 : P3 (ix4 n q (0 : Fin 1) d) = B 3) (e4 : P4 (ix4 n q (0 : Fin 1) d) = B 4) (e5 : P5 (ix4 n q (0 : Fin 1) d) = B 5)
    (e6 : P6 (ix4 n q (0 : Fin 1) d) = B 6) (e7 : P7 (ix4 n q (0 : Fin 1) d) = B 7) :
    concatenate S32x64x8x32 2 [(⟨S32x64x1x32, P0⟩ : (s : Shape) × (s.Idx → Ideal .f32)), ⟨S32x64x1x32, P1⟩, ⟨S32x64x1x32, P2⟩, ⟨S32x64x1x32, P3⟩, ⟨S32x64x1x32, P4⟩, ⟨S32x64x1x32, P5⟩, ⟨S32x64x1x32, P6⟩, ⟨S32x64x1x32, P7⟩] hc (ix4 n q h d) = B h := by
  match h with
  | ⟨0, _⟩ =>
    exact (concatenate_apply_piece (2 : Fin 4) _ hc (ix4 n q (⟨0, by omega⟩ : Fin 8) d) 0 (by show (0 : Nat) < 8; omega) S32x64x1x32 P0 rfl rfl 0 rfl
      (ix4 n q (0 : Fin 1) d) (fun b => match b with
        | ⟨0, _⟩ => fun _ => rfl
        | ⟨1, _⟩ => fun _ => rfl
        | ⟨2, _⟩ => fun hb => absurd rfl hb
        | ⟨3, _⟩ => fun _ => rfl) rfl).trans e0
  | ⟨1, _⟩ =>
    exact (concatenate_apply_piece (2 : Fin 4) _ hc (ix4 n q (⟨1, by omega⟩ : Fin 8) d) 1 (by show (1 : Nat) < 8; omega) S32x64x1x32 P1 rfl rfl 1 rfl
      (ix4 n q (0 : Fin 1) d) (fun b => match b with
        | ⟨0, _⟩ => fun _ => rfl
        | ⟨1, _⟩ => fun _ => rfl
        | ⟨2, _⟩ => fun hb => absurd rfl hb
        | ⟨3, _⟩ => fun _ => rfl) rfl).trans e1
  | ⟨2, _⟩ =>
    exact (concatenate_apply_piece (2 : Fin 4) _ hc (ix4 n q (⟨2, by omega⟩ : Fin 8) d) 2 (by show (2 : Nat) < 8; omega) S32x64x1x32 P2 rfl rfl 2 rfl
      (ix4 n q (0 : Fin 1) d) (fun b => match b with
        | ⟨0, _⟩ => fun _ => rfl
        | ⟨1, _⟩ => fun _ => rfl
        | ⟨2, _⟩ => fun hb => absurd rfl hb
        | ⟨3, _⟩ => fun _ => rfl) rfl).trans e2
  | ⟨3, _⟩ =>
    exact (concatenate_apply_piece (2 : Fin 4) _ hc (ix4 n q (⟨3, by omega⟩ : Fin 8) d) 3 (by show (3 : Nat) < 8; omega) S32x64x1x32 P3 rfl rfl 3 rfl
      (ix4 n q (0 : Fin 1) d) (fun b => match b with
        | ⟨0, _⟩ => fun _ => rfl
        | ⟨1, _⟩ => fun _ => rfl
        | ⟨2, _⟩ => fun hb => absurd rfl hb
        | ⟨3, _⟩ => fun _ => rfl) rfl).trans e3
  | ⟨4, _⟩ =>
    exact (concatenate_apply_piece (2 : Fin 4) _ hc (ix4 n q (⟨4, by omega⟩ : Fin 8) d) 4 (by show (4 : Nat) < 8; omega) S32x64x1x32 P4 rfl rfl 4 rfl
      (ix4 n q (0 : Fin 1) d) (fun b => match b with
        | ⟨0, _⟩ => fun _ => rfl
        | ⟨1, _⟩ => fun _ => rfl
        | ⟨2, _⟩ => fun hb => absurd rfl hb
        | ⟨3, _⟩ => fun _ => rfl) rfl).trans e4
  | ⟨5, _⟩ =>
    exact (concatenate_apply_piece (2 : Fin 4) _ hc (ix4 n q (⟨5, by omega⟩ : Fin 8) d) 5 (by show (5 : Nat) < 8; omega) S32x64x1x32 P5 rfl rfl 5 rfl
      (ix4 n q (0 : Fin 1) d) (fun b => match b with
        | ⟨0, _⟩ => fun _ => rfl
        | ⟨1, _⟩ => fun _ => rfl
        | ⟨2, _⟩ => fun hb => absurd rfl hb
        | ⟨3, _⟩ => fun _ => rfl) rfl).trans e5
  | ⟨6, _⟩ =>
    exact (concatenate_apply_piece (2 : Fin 4) _ hc (ix4 n q (⟨6, by omega⟩ : Fin 8) d) 6 (by show (6 : Nat) < 8; omega) S32x64x1x32 P6 rfl rfl 6 rfl
      (ix4 n q (0 : Fin 1) d) (fun b => match b with
        | ⟨0, _⟩ => fun _ => rfl
        | ⟨1, _⟩ => fun _ => rfl
        | ⟨2, _⟩ => fun hb => absurd rfl hb
        | ⟨3, _⟩ => fun _ => rfl) rfl).trans e6
  | ⟨7, _⟩ =>
    exact (concatenate_apply_piece (2 : Fin 4) _ hc (ix4 n q (⟨7, by omega⟩ : Fin 8) d) 7 (by show (7 : Nat) < 8; omega) S32x64x1x32 P7 rfl rfl 7 rfl
      (ix4 n q (0 : Fin 1) d) (fun b => match b with
        | ⟨0, _⟩ => fun _ => rfl
        | ⟨1, _⟩ => fun _ => rfl
        | ⟨2, _⟩ => fun hb => absurd rfl hb
        | ⟨3, _⟩ => fun _ => rfl) rfl).trans e7

/-- The last stage at (row `n·64 + q`, `o`), the eight heads' outputs at (n, q, ·) being `A h`. -/
theorem pay1_at (H3 H4 H5 H6 H7 : FVec Ideal S32x64x32 .f32) (H0 H1 H2 : FVec Ideal S32x64x1x32 .f32)
    (v250 : Vec Ideal S256x256 .bf16) (v253 : Vec Ideal S256 .f32) (n : Fin 32) (q : Fin 64) (o : Fin 256)
    (A : Fin 8 → Fin 32 → EReal)
    (e0 : ∀ d, H0 (ix4 n q (0 : Fin 1) d) = A 0 d) (e1 : ∀ d, H1 (ix4 n q (0 : Fin 1) d) = A 1 d)
    (e2 : ∀ d, H2 (ix4 n q (0 : Fin 1) d) = A 2 d) (e3 : ∀ d, H3 (ix3 n q d) = A 3 d) (e4 : ∀ d, H4 (ix3 n q d) = A 4 d)
    (e5 : ∀ d, H5 (ix3 n q d) = A 5 d) (e6 : ∀ d, H6 (ix3 n q d) = A 6 d) (e7 : ∀ d, H7 (ix3 n q d) = A 7 d) :
    k0_pay1 (F := Ideal) H3 H4 H5 H6 H7 H0 H1 H2 v250 v253 (ix3 (0 : Fin 1) (blkRow n q) o)
      = projRow (fun c => A (headOf c) (coordOf c)) (fun o' c => v250 (ix2 c o')) (fun o' => v253 (ix1 o')) o := by
  unfold k0_pay1 projRow
  refine (shapeCast_apply _ shapeCasts_S2048x256_S1x2048x256 (ix3 (0 : Fin 1) (blkRow n q) o) (ix2 (blkRow n q) o) ?_).trans ?_
  · rw [Shape.rowMajor_val_two, Shape.rowMajor_val_three]
    show (n.val * 64 + q.val) * 256 + o.val = (0 * 2048 + (n.val * 64 + q.val)) * 256 + o.val
    omega
  · refine congrArg₂ (· + ·) ?_ (biasRow_at v253 (blkRow n q) o)
    refine (Cert.PlainDot.matmul_zero_plain_apply (M := 2048) (K := 256) (N := 256) none _ _ (blkRow n q) o).trans ?_
    refine Finset.sum_congr rfl fun c _ => ?_
    refine congrArg₂ (· * ·) ?_ ?_
    · refine (truncf_apply (ψ := .bf16) _ bitsLt_bf16_f32 (ix2 (blkRow n q) c)).trans ?_
      refine (shapeCast_apply _ shapeCasts_S32x64x8x32_S2048x256 (ix2 (blkRow n q) c) (ix4 n q (headOf c) (coordOf c)) ?_).trans ?_
      · rw [Shape.rowMajor_val_four, Shape.rowMajor_val_two]
        show ((n.val * 64 + q.val) * 8 + c.val / 32) * 32 + c.val % 32 = (n.val * 64 + q.val) * 256 + c.val
        omega
      · exact stack8_at _ _ _ _ _ _ _ _ _ n q (headOf c) (coordOf c) (fun h => A h (coordOf c)) (e0 _) (e1 _) (e2 _)
          ((addUnit_at H3 n q _).trans (e3 _)) ((addUnit_at H4 n q _).trans (e4 _)) ((addUnit_at H5 n q _).trans (e5 _))
          ((addUnit_at H6 n q _).trans (e6 _)) ((addUnit_at H7 n q _).trans (e7 _))
    · show shapeCast S256x256 v250 shapeCasts_S256x256_S256x256 (ix2 c o) = _
      rw [shapeCast_self]

end Cert.KSide

end
-- ==== Proof.KHeads.lean ====
import proofs.«172021_j62835371541012_1_alg».proof.Proof.Gen.KernelIdeal.Skeleton
import proofs.«172021_j62835371541012_1_alg».proof.Proof.Spec
import Idealize.ShloMosaic.Lib.ValueIdx
import Idealize.ShloMosaic.Lib.Pipeline.Value
import Idealize.ShloMosaic.PureOps.Ideal.Laws
set_option maxRecDepth 16384
noncomputable section
namespace Cert.KSide
open Cert.KernelIdeal Cert.KernelIdeal.Gen Idealize.ShloMosaic Idealize.ShloMosaic.ValueIdx Cert.WinAttn

/-- head h of window n of the block, as the specification says it -/
abbrev headSpec (h : Fin 8) (v8 v10 v12 : FVec Ideal S32x64x8x32 .f32) (v14 : FVec Ideal S64x64 .f32) (n : Fin 32) (q : Fin 64) (d : Fin 32) : EReal :=
  head (fun q' d' => v8 (ix4 n q' h d')) (fun k d' => v10 (ix4 n k h d')) (fun k d' => v12 (ix4 n k h d')) (fun q' k => v14 (ix2 q' k)) q d

/-- One head of the kernel body over a variable offset `o` on the head axis: the slices of the query, key and value
    arrays at head `o`, the scaled and biased logits, the stable softmax over the key axis, and the weighted sum of the
    values. -/
def kHead (o : Nat) (hs : S32x64x8x32.Slices ![0, 0, o, 0] S32x64x1x32) (v8 v10 v12 : FVec Ideal S32x64x8x32 .f32)
    (v14 : FVec Ideal S64x64 .f32) : FVec Ideal S32x64x32 .f32 :=
  have v99 : FVec Ideal S32x64x1x32 .f32 := extractStridedSlice S32x64x1x32 ![0, 0, o, 0] v8 hs
  have v100 : FVec Ideal S32x64x32 .f32 := shapeCast S32x64x32 v99 shapeCasts_S32x64x1x32_S32x64x32
  have v101 : FVec Ideal S32x64x32 .bf16 := truncf .bf16 v100 bitsLt_bf16_f32
  have v102 : FVec Ideal S32x64x1x32 .f32 := extractStridedSlice S32x64x1x32 ![0, 0, o, 0] v10 hs
  have v103 : FVec Ideal S32x64x32 .f32 := shapeCast S32x64x32 v102 shapeCasts_S32x64x1x32_S32x64x32
  have v104 : FVec Ideal S32x64x32 .bf16 := truncf .bf16 v103 bitsLt_bf16_f32
  have v105 : FVec Ideal S32x64x1x32 .f32 := extractStridedSlice S32x64x1x32 ![0, 0, o, 0] v12 hs
  have v106 : FVec Ideal S32x64x32 .f32 := shapeCast S32x64x32 v105 shapeCasts_S32x64x1x32_S32x64x32
  have v107 : FVec Ideal S32x64x32 .bf16 := truncf .bf16 v106 bitsLt_bf16_f32
  have cst_24 : FVec Ideal S32x64x64 .f32 := constant S32x64x64 .f32 0x00000000#32
  have v108 : FVec Ideal S32x64x64 .f32 := matmul dot_S32x64x32_S32x64x32_S32x64x64_2_2_1_1_0_0 none v101 v104 cst_24
  have cst_25 : Ideal .f32 := Scalar.ofBits .f32 0x3E3504F3#32
  have v109 : FVec Ideal S32x64x64 .f32 := broadcast S32x64x64 cst_25
  have v110 : FVec Ideal S32x64x64 .f32 := mulf v108 v109
  have v111 : FVec Ideal S1x64x64 .f32 := shapeCast S1x64x64 v14 shapeCasts_S64x64_S1x64x64
  have v112 : FVec Ideal S32x64x64 .f32 := broadcastTo S32x64x64 v111 broadcasts_S1x64x64_S32x64x64
  have v113 : FVec Ideal S32x64x64 .f32 := addf v110 v112
  have v114 : FVec Ideal S32x64 .f32 := multiReduction .maximumf [2] S32x64 v113 0xFF800000#32 reduces_S32x64x64_S32x64 (.inl rfl) rfl
  have cst_27 : Ideal .f32 := Scalar.ofBits .f32 0xFF800000#32
  have v115 : FVec Ideal S32x64 .f32 := broadcast S32x64 cst_27
  have v116 : FVec Ideal S32x64 .f32 := maximumf v115 v114
  have v117 : FVec Ideal S32x64x1 .f32 := shapeCast S32x64x1 v116 shapeCasts_S32x64_S32x64x1
  have v118 : FVec Ideal S32x64x64 .f32 := broadcastTo S32x64x64 v117 broadcasts_S32x64x1_S32x64x64
  have v119 : FVec Ideal S32x64x64 .f32 := subf v113 v118
  have v120 : FVec Ideal S32x64x64 .f32 := exp v119
  have v121 : FVec Ideal S32x64 .f32 := multiReduction .add [2] S32x64 v120 0x00000000#32 reduces_S32x64x64_S32x64 (.inl rfl) rfl
  have v122 : FVec Ideal S32x64x1 .f32 := shapeCast S32x64x1 v121 shapeCasts_S32x64_S32x64x1
  have v123 : FVec Ideal S32x64x64 .f32 := broadcastTo S32x64x64 v122 broadcasts_S32x64x1_S32x64x64
  have v124 : FVec Ideal S32x64x64 .f32 := divf v120 v123
  have v125 : FVec Ideal S32x64x64 .bf16 := truncf .bf16 v124 bitsLt_bf16_f32
  have cst_29 : FVec Ideal S32x64x32 .f32 := constant S32x64x32 .f32 0x00000000#32
  have v126 : FVec Ideal S32x64x32 .f32 := matmul dot_S32x64x64_S32x64x32_S32x64x32_2_1_1_2_0_0 none v125 v107 cst_29
  v126

/-! ## The layout steps, read at explicit coordinates -/

/-- The slice of head `o`, with its unit axis dropped (and the format change, the identity on extended reals), reads
    the array at head `o`. -/
theorem sliceHead_apply (o : Nat) (ho : o < 8) (hs : S32x64x8x32.Slices ![0, 0, o, 0] S32x64x1x32)
    (v : FVec Ideal S32x64x8x32 .f32) (n : Fin 32) (r : Fin 64) (e : Fin 32) :
    (truncf .bf16 (shapeCast S32x64x32 (extractStridedSlice S32x64x1x32 ![0, 0, o, 0] v hs) shapeCasts_S32x64x1x32_S32x64x32)
      bitsLt_bf16_f32 : FVec Ideal S32x64x32 .bf16) (ix3 n r e) = v (ix4 n r ⟨o, ho⟩ e) := by
  show shapeCast S32x64x32 (extractStridedSlice S32x64x1x32 ![0, 0, o, 0] v hs) shapeCasts_S32x64x1x32_S32x64x32 (ix3 n r e) = _
  refine (shapeCast_apply _ shapeCasts_S32x64x1x32_S32x64x32 (ix3 n r e) (ix4 n r (0 : Fin 1) e) ?_).trans ?_
  · rw [Shape.rowMajor_val_four, Shape.rowMajor_val_three]
    show ((n.val * 64 + r.val) * 1 + 0) * 32 + e.val = (n.val * 64 + r.val) * 32 + e.val
    omega
  · exact extractStridedSlice_apply _ v hs _ _ (fun a => match a with
      | ⟨0, _⟩ => by show n.val = 0 + n.val; omega
      | ⟨1, _⟩ => by show r.val = 0 + r.val; omega
      | ⟨2, _⟩ => by show o = o + 0; omega
      | ⟨3, _⟩ => by show e.val = 0 + e.val; omega)

/-! ## The two contractions

Each operand index of a contraction, axis by axis: a batch axis and a free axis read the result index, the contracted
axis reads the contraction index's one coordinate. -/

theorem qk_lhs_0 (j : S32x64x64.Idx) (k : dot_S32x64x32_S32x64x32_S32x64x64_2_2_1_1_0_0.contr.Idx) :
    (dot_S32x64x32_S32x64x32_S32x64x64_2_2_1_1_0_0.lhsIdx j k 0).val = (j 0).val := by
  unfold DotDims.lhsIdx
  rw [dif_pos (show (0 : Fin S32x64x32.rank) ∈ dot_S32x64x32_S32x64x32_S32x64x64_2_2_1_1_0_0.lhsBatch by decide)]
  rfl
theorem qk_lhs_1 (j : S32x64x64.Idx) (k : dot_S32x64x32_S32x64x32_S32x64x64_2_2_1_1_0_0.contr.Idx) :
    (dot_S32x64x32_S32x64x32_S32x64x64_2_2_1_1_0_0.lhsIdx j k 1).val = (j 1).val := by
  unfold DotDims.lhsIdx
  rw [dif_neg (show ¬(1 : Fin S32x64x32.rank) ∈ dot_S32x64x32_S32x64x32_S32x64x64_2_2_1_1_0_0.lhsBatch by decide),
    dif_pos (show (1 : Fin S32x64x32.rank) ∈ dot_S32x64x32_S32x64x32_S32x64x64_2_2_1_1_0_0.lhsNonContracting by decide)]
  rfl
theorem qk_lhs_2 (j : S32x64x64.Idx) (k : dot_S32x64x32_S32x64x32_S32x64x64_2_2_1_1_0_0.contr.Idx) :
    (dot_S32x64x32_S32x64x32_S32x64x64_2_2_1_1_0_0.lhsIdx j k 2).val = (k ⟨0, by decide⟩).val :=
  dot_S32x64x32_S32x64x32_S32x64x64_2_2_1_1_0_0.lhsIdx_val_of_single rfl j k
theorem qk_rhs_0 (j : S32x64x64.Idx) (k : dot_S32x64x32_S32x64x32_S32x64x64_2_2_1_1_0_0.contr.Idx) :
    (dot_S32x64x32_S32x64x32_S32x64x64_2_2_1_1_0_0.rhsIdx j k 0).val = (j 0).val := by
  unfold DotDims.rhsIdx
  rw [dif_pos (show (0 : Fin S32x64x32.rank) ∈ dot_S32x64x32_S32x64x32_S32x64x64_2_2_1_1_0_0.rhsBatch by decide)]
  rfl
theorem qk_rhs_1 (j : S32x64x64.Idx) (k : dot_S32x64x32_S32x64x32_S32x64x64_2_2_1_1_0_0.contr.Idx) :
    (dot_S32x64x32_S32x64x32_S32x64x64_2_2_1_1_0_0.rhsIdx j k 1).val = (j 2).val := by
  unfold DotDims.rhsIdx
  rw [dif_neg (show ¬(1 : Fin S32x64x32.rank) ∈ dot_S32x64x32_S32x64x32_S32x64x64_2_2_1_1_0_0.rhsBatch by decide),
    dif_pos (show (1 : Fin S32x64x32.rank) ∈ dot_S32x64x32_S32x64x32_S32x64x64_2_2_1_1_0_0.rhsNonContracting by decide)]
  rfl
theorem qk_rhs_2 (j : S32x64x64.Idx) (k : dot_S32x64x32_S32x64x32_S32x64x64_2_2_1_1_0_0.contr.Idx) :
    (dot_S32x64x32_S32x64x32_S32x64x64_2_2_1_1_0_0.rhsIdx j k 2).val = (k ⟨0, by decide⟩).val :=
  dot_S32x64x32_S32x64x32_S32x64x64_2_2_1_1_0_0.rhsIdx_val_of_single rfl j k
theorem pv_lhs_0 (j : S32x64x32.Idx) (k : dot_S32x64x64_S32x64x32_S32x64x32_2_1_1_2_0_0.contr.Idx) :
    (dot_S32x64x64_S32x64x32_S32x64x32_2_1_1_2_0_0.lhsIdx j k 0).val = (j 0).val := by
  unfold DotDims.lhsIdx
  rw [dif_pos (show (0 : Fin S32x64x64.rank) ∈ dot_S32x64x64_S32x64x32_S32x64x32_2_1_1_2_0_0.lhsBatch by decide)]
  rfl
theorem pv_lhs_1 (j : S32x64x32.Idx) (k : dot_S32x64x64_S32x64x32_S32x64x32_2_1_1_2_0_0.contr.Idx) :
    (dot_S32x64x64_S32x64x32_S32x64x32_2_1_1_2_0_0.lhsIdx j k 1).val = (j 1).val := by
  unfold DotDims.lhsIdx
  rw [dif_neg (show ¬(1 : Fin S32x64x64.rank) ∈ dot_S32x64x64_S32x64x32_S32x64x32_2_1_1_2_0_0.lhsBatch by decide),
    dif_pos (show (1 : Fin S32x64x64.rank) ∈ dot_S32x64x64_S32x64x32_S32x64x32_2_1_1_2_0_0.lhsNonContracting by decide)]
  rfl
theorem pv_lhs_2 (j : S32x64x32.Idx) (k : dot_S32x64x64_S32x64x32_S32x64x32_2_1_1_2_0_0.contr.Idx) :
    (dot_S32x64x64_S32x64x32_S32x64x32_2_1_1_2_0_0.lhsIdx j k 2).val = (k ⟨0, by decide⟩).val :=
  dot_S32x64x64_S32x64x32_S32x64x32_2_1_1_2_0_0.lhsIdx_val_of_single rfl j k
theorem pv_rhs_0 (j : S32x64x32.Idx) (k : dot_S32x64x64_S32x64x32_S32x64x32_2_1_1_2_0_0.contr.Idx) :
    (dot_S32x64x64_S32x64x32_S32x64x32_2_1_1_2_0_0.rhsIdx j k 0).val = (j 0).val := by
  unfold DotDims.rhsIdx
  rw [dif_pos (show (0 : Fin S32x64x32.rank) ∈ dot_S32x64x64_S32x64x32_S32x64x32_2_1_1_2_0_0.rhsBatch by decide)]
  rfl
theorem pv_rhs_1 (j : S32x64x32.Idx) (k : dot_S32x64x64_S32x64x32_S32x64x32_2_1_1_2_0_0.contr.Idx) :
    (dot_S32x64x64_S32x64x32_S32x64x32_2_1_1_2_0_0.rhsIdx j k 1).val = (k ⟨0, by decide⟩).val :=
  dot_S32x64x64_S32x64x32_S32x64x32_2_1_1_2_0_0.rhsIdx_val_of_single rfl j k
theorem pv_rhs_2 (j : S32x64x32.Idx) (k : dot_S32x64x64_S32x64x32_S32x64x32_2_1_1_2_0_0.contr.Idx) :
    (dot_S32x64x64_S32x64x32_S32x64x32_2_1_1_2_0_0.rhsIdx j k 2).val = (j 2).val := by
  unfold DotDims.rhsIdx
  rw [dif_neg (show ¬(2 : Fin S32x64x32.rank) ∈ dot_S32x64x64_S32x64x32_S32x64x32_2_1_1_2_0_0.rhsBatch by decide),
    dif_pos (show (2 : Fin S32x64x32.rank) ∈ dot_S32x64x64_S32x64x32_S32x64x32_2_1_1_2_0_0.rhsNonContracting by decide)]
  rfl

/-- The first product (batch axis 0, both operands contracted on their last axis) into the zero splat: at
    `(n, q, k)` the dot product of query row `q` and key row `k` of window `n`. -/
theorem qk_apply (Q K : FVec Ideal S32x64x32 .bf16) (n : Fin 32) (q k : Fin 64) :
    (matmul dot_S32x64x32_S32x64x32_S32x64x64_2_2_1_1_0_0 none Q K (constant S32x64x64 .f32 0x00000000#32) :
      FVec Ideal S32x64x64 .f32) (ix3 n q k) = ∑ e : Fin 32, Q (ix3 n q e) * K (ix3 n k e) := by
  refine (Ideal.matmul_constant_zero_apply dot_S32x64x32_S32x64x32_S32x64x64_2_2_1_1_0_0 none Q K (ix3 n q k)).trans ?_
  rw [← Equiv.sum_comp (contrEquiv1 dot_S32x64x32_S32x64x32_S32x64x64_2_2_1_1_0_0 32 rfl rfl).symm]
  refine Finset.sum_congr rfl fun e _ => ?_
  have hk := contrEquiv1_symm_val dot_S32x64x32_S32x64x32_S32x64x64_2_2_1_1_0_0 32 rfl rfl e
  have el : dot_S32x64x32_S32x64x32_S32x64x64_2_2_1_1_0_0.lhsIdx (ix3 n q k) ((contrEquiv1 dot_S32x64x32_S32x64x32_S32x64x64_2_2_1_1_0_0 32 rfl rfl).symm e) = ix3 n q e :=
    funext fun a => Fin.ext (by
      match a with
      | ⟨0, _⟩ => exact qk_lhs_0 _ _
      | ⟨1, _⟩ => exact qk_lhs_1 _ _
      | ⟨2, _⟩ => exact (qk_lhs_2 _ _).trans hk)
  have er : dot_S32x64x32_S32x64x32_S32x64x64_2_2_1_1_0_0.rhsIdx (ix3 n q k) ((contrEquiv1 dot_S32x64x32_S32x64x32_S32x64x64_2_2_1_1_0_0 32 rfl rfl).symm e) = ix3 n k e :=
    funext fun a => Fin.ext (by
      match a with
      | ⟨0, _⟩ => exact qk_rhs_0 _ _
      | ⟨1, _⟩ => exact qk_rhs_1 _ _
      | ⟨2, _⟩ => exact (qk_rhs_2 _ _).trans hk)
  rw [el, er]

/-- The second product (batch axis 0, the left operand contracted on its last axis, the right on its middle one) into
    the zero splat: at `(n, q, d)` the sum over the key tokens of weight times value coordinate `d`. -/
theorem pv_apply (P : FVec Ideal S32x64x64 .bf16) (V : FVec Ideal S32x64x32 .bf16) (n : Fin 32) (q : Fin 64) (d : Fin 32) :
    (matmul dot_S32x64x64_S32x64x32_S32x64x32_2_1_1_2_0_0 none P V (constant S32x64x32 .f32 0x00000000#32) :
      FVec Ideal S32x64x32 .f32) (ix3 n q d) = ∑ k : Fin 64, P (ix3 n q k) * V (ix3 n k d) := by
  refine (Ideal.matmul_constant_zero_apply dot_S32x64x64_S32x64x32_S32x64x32_2_1_1_2_0_0 none P V (ix3 n q d)).trans ?_
  rw [← Equiv.sum_comp (contrEquiv1 dot_S32x64x64_S32x64x32_S32x64x32_2_1_1_2_0_0 64 rfl rfl).symm]
  refine Finset.sum_congr rfl fun k _ => ?_
  have hk := contrEquiv1_symm_val dot_S32x64x64_S32x64x32_S32x64x32_2_1_1_2_0_0 64 rfl rfl k
  have el : dot_S32x64x64_S32x64x32_S32x64x32_2_1_1_2_0_0.lhsIdx (ix3 n q d) ((contrEquiv1 dot_S32x64x64_S32x64x32_S32x64x32_2_1_1_2_0_0 64 rfl rfl).symm k) = ix3 n q k :=
    funext fun a => Fin.ext (by
      match a with
      | ⟨0, _⟩ => exact pv_lhs_0 _ _
      | ⟨1, _⟩ => exact pv_lhs_1 _ _
      | ⟨2, _⟩ => exact (pv_lhs_2 _ _).trans hk)
  have er : dot_S32x64x64_S32x64x32_S32x64x32_2_1_1_2_0_0.rhsIdx (ix3 n q d) ((contrEquiv1 dot_S32x64x64_S32x64x32_S32x64x32_2_1_1_2_0_0 64 rfl rfl).symm k) = ix3 n k d :=
    funext fun a => Fin.ext (by
      match a with
      | ⟨0, _⟩ => exact pv_rhs_0 _ _
      | ⟨1, _⟩ => exact (pv_rhs_1 _ _).trans hk
      | ⟨2, _⟩ => exact pv_rhs_2 _ _)
  rw [el, er]

/-! ## The bias and the row statistics, read at explicit coordinates -/

/-- The bias `[64, 64]`, given a leading unit axis and broadcast over the windows, reads the bias at `(q, k)`. -/
theorem bias_apply (B : FVec Ideal S64x64 .f32) (n : Fin 32) (q k : Fin 64) :
    broadcastTo S32x64x64 (shapeCast S1x64x64 B shapeCasts_S64x64_S1x64x64) broadcasts_S1x64x64_S32x64x64 (ix3 n q k)
      = B (ix2 q k) := by
  refine (broadcastTo_apply _ broadcasts_S1x64x64_S32x64x64 (ix3 n q k) (ix3 (0 : Fin 1) q k) (fun a => match a with
    | ⟨0, _⟩ => rfl
    | ⟨1, _⟩ => rfl
    | ⟨2, _⟩ => rfl)).trans ?_
  refine shapeCast_apply B shapeCasts_S64x64_S1x64x64 (ix3 (0 : Fin 1) q k) (ix2 q k) ?_
  rw [Shape.rowMajor_val_two, Shape.rowMajor_val_three]
  show q.val * 64 + k.val = (0 * 64 + q.val) * 64 + k.val
  omega

/-- A per-row quantity `[32, 64]`, given a trailing unit axis and broadcast along the key axis, reads the row's. -/
theorem rowBcast_apply (m : FVec Ideal S32x64 .f32) (n : Fin 32) (q k : Fin 64) :
    broadcastTo S32x64x64 (shapeCast S32x64x1 m shapeCasts_S32x64_S32x64x1) broadcasts_S32x64x1_S32x64x64 (ix3 n q k)
      = m (ix2 n q) := by
  refine (broadcastTo_apply _ broadcasts_S32x64x1_S32x64x64 (ix3 n q k) (ix3 n q (0 : Fin 1)) (fun a => match a with
    | ⟨0, _⟩ => rfl
    | ⟨1, _⟩ => rfl
    | ⟨2, _⟩ => rfl)).trans ?_
  refine shapeCast_apply m shapeCasts_S32x64_S32x64x1 (ix3 n q (0 : Fin 1)) (ix2 n q) ?_
  rw [Shape.rowMajor_val_two, Shape.rowMajor_val_three]
  show n.val * 64 + q.val = (n.val * 64 + q.val) * 1 + 0
  omega

/-- The index over `(n, q)` with coordinate `k` inserted on the reduced (last) axis is `(n, q, k)`. -/
theorem lift_eq (n : Fin 32) (q k : Fin 64) :
    reduces_S32x64x64_S32x64.lift (ix2 n q) k = ix3 n q k :=
  funext fun a => match a with
    | ⟨0, _⟩ => rfl
    | ⟨1, _⟩ => rfl
    | ⟨2, _⟩ => rfl

/-- The maximum over the key axis from the word for minus infinity, compared once more with that word: the row's
    maximum as the specification takes it. -/
theorem rowMax_apply (L : FVec Ideal S32x64x64 .f32) (n : Fin 32) (q : Fin 64) :
    maximumf (broadcast S32x64 (Scalar.ofBits .f32 0xFF800000#32 : Ideal .f32))
        (multiReduction .maximumf [2] S32x64 L 0xFF800000#32 reduces_S32x64x64_S32x64 (.inl rfl) rfl) (ix2 n q)
      = rmax (fun k => L (ix3 n q k)) := by
  show max (Ideal.ofBits .f32 0xFF800000#32)
      (multiReduction .maximumf [2] S32x64 L 0xFF800000#32 reduces_S32x64x64_S32x64 (.inl rfl) rfl (ix2 n q)) = _
  refine congrArg (max (Ideal.ofBits .f32 0xFF800000#32)) ?_
  refine (Ideal.multiReduction_maximumf_single L 0xFF800000#32 reduces_S32x64x64_S32x64 (.inl rfl) rfl (ix2 n q)).trans ?_
  have e : (L ∘ reduces_S32x64x64_S32x64.lift (ix2 n q)) = fun k : Fin 64 => L (ix3 n q k) :=
    funext fun k => congrArg L (lift_eq n q k)
  rw [e]
  rfl

/-- The sum over the key axis from the zero word: the row's sum. -/
theorem rowSum_apply (E : FVec Ideal S32x64x64 .f32) (n : Fin 32) (q : Fin 64) :
    multiReduction .add [2] S32x64 E 0x00000000#32 reduces_S32x64x64_S32x64 (.inl rfl) rfl (ix2 n q)
      = ∑ k : Fin 64, E (ix3 n q k) := by
  refine (Ideal.multiReduction_add_single E 0x00000000#32 reduces_S32x64x64_S32x64 (.inl rfl) rfl (ix2 n q)).trans ?_
  exact Finset.sum_congr rfl fun k _ => congrArg E (lift_eq n q k)

/-! ## The head in three parts: logits, softmax weights, weighted sum -/

/-- The scaled and biased logits of head `o`, as the body computes them. -/
def kLogits (o : Nat) (hs : S32x64x8x32.Slices ![0, 0, o, 0] S32x64x1x32) (v8 v10 : FVec Ideal S32x64x8x32 .f32)
    (v14 : FVec Ideal S64x64 .f32) : FVec Ideal S32x64x64 .f32 :=
  have v99 : FVec Ideal S32x64x1x32 .f32 := extractStridedSlice S32x64x1x32 ![0, 0, o, 0] v8 hs
  have v100 : FVec Ideal S32x64x32 .f32 := shapeCast S32x64x32 v99 shapeCasts_S32x64x1x32_S32x64x32
  have v101 : FVec Ideal S32x64x32 .bf16 := truncf .bf16 v100 bitsLt_bf16_f32
  have v102 : FVec Ideal S32x64x1x32 .f32 := extractStridedSlice S32x64x1x32 ![0, 0, o, 0] v10 hs
  have v103 : FVec Ideal S32x64x32 .f32 := shapeCast S32x64x32 v102 shapeCasts_S32x64x1x32_S32x64x32
  have v104 : FVec Ideal S32x64x32 .bf16 := truncf .bf16 v103 bitsLt_bf16_f32
  have cst_24 : FVec Ideal S32x64x64 .f32 := constant S32x64x64 .f32 0x00000000#32
  have v108 : FVec Ideal S32x64x64 .f32 := matmul dot_S32x64x32_S32x64x32_S32x64x64_2_2_1_1_0_0 none v101 v104 cst_24
  have cst_25 : Ideal .f32 := Scalar.ofBits .f32 0x3E3504F3#32
  have v109 : FVec Ideal S32x64x64 .f32 := broadcast S32x64x64 cst_25
  have v110 : FVec Ideal S32x64x64 .f32 := mulf v108 v109
  have v111 : FVec Ideal S1x64x64 .f32 := shapeCast S1x64x64 v14 shapeCasts_S64x64_S1x64x64
  have v112 : FVec Ideal S32x64x64 .f32 := broadcastTo S32x64x64 v111 broadcasts_S1x64x64_S32x64x64
  have v113 : FVec Ideal S32x64x64 .f32 := addf v110 v112
  v113

/-- The exponentials of the logits less their row maximum, as the body computes them from the logits. -/
def kExp (v113 : FVec Ideal S32x64x64 .f32) : FVec Ideal S32x64x64 .f32 :=
  have v114 : FVec Ideal S32x64 .f32 := multiReduction .maximumf [2] S32x64 v113 0xFF800000#32 reduces_S32x64x64_S32x64 (.inl rfl) rfl
  have cst_27 : Ideal .f32 := Scalar.ofBits .f32 0xFF800000#32
  have v115 : FVec Ideal S32x64 .f32 := broadcast S32x64 cst_27
  have v116 : FVec Ideal S32x64 .f32 := maximumf v115 v114
  have v117 : FVec Ideal S32x64x1 .f32 := shapeCast S32x64x1 v116 shapeCasts_S32x64_S32x64x1
  have v118 : FVec Ideal S32x64x64 .f32 := broadcastTo S32x64x64 v117 broadcasts_S32x64x1_S32x64x64
  have v119 : FVec Ideal S32x64x64 .f32 := subf v113 v118
  have v120 : FVec Ideal S32x64x64 .f32 := exp v119
  v120

/-- The softmax weights, as the body computes them from the exponentials. -/
def kNorm (v120 : FVec Ideal S32x64x64 .f32) : FVec Ideal S32x64x64 .bf16 :=
  have v121 : FVec Ideal S32x64 .f32 := multiReduction .add [2] S32x64 v120 0x00000000#32 reduces_S32x64x64_S32x64 (.inl rfl) rfl
  have v122 : FVec Ideal S32x64x1 .f32 := shapeCast S32x64x1 v121 shapeCasts_S32x64_S32x64x1
  have v123 : FVec Ideal S32x64x64 .f32 := broadcastTo S32x64x64 v122 broadcasts_S32x64x1_S32x64x64
  have v124 : FVec Ideal S32x64x64 .f32 := divf v120 v123
  have v125 : FVec Ideal S32x64x64 .bf16 := truncf .bf16 v124 bitsLt_bf16_f32
  v125

/-- The body's logits at `(n, q, k)` are the specification's row of logits of query `q` at `k`. -/
theorem kLogits_apply (o : Nat) (ho : o < 8) (hs : S32x64x8x32.Slices ![0, 0, o, 0] S32x64x1x32)
    (v8 v10 : FVec Ideal S32x64x8x32 .f32) (v14 : FVec Ideal S64x64 .f32) (n : Fin 32) (q k : Fin 64) :
    kLogits o hs v8 v10 v14 (ix3 n q k)
      = logits (fun d' => v8 (ix4 n q ⟨o, ho⟩ d')) (fun k' d' => v10 (ix4 n k' ⟨o, ho⟩ d')) (fun k' => v14 (ix2 q k')) k := by
  show _ = (∑ e : Fin 32, v8 (ix4 n q ⟨o, ho⟩ e) * v10 (ix4 n k ⟨o, ho⟩ e)) * sc + v14 (ix2 q k)
  unfold kLogits
  refine (addf_apply _ _ _).trans ?_
  refine congrArg₂ (· + ·) ?_ (bias_apply v14 n q k)
  refine (mulf_apply _ _ _).trans ?_
  refine congrArg₂ (· * ·) ?_ rfl
  refine (qk_apply _ _ n q k).trans ?_
  exact Finset.sum_congr rfl fun e _ =>
    congrArg₂ (· * ·) (sliceHead_apply o ho hs v8 n q e) (sliceHead_apply o ho hs v10 n k e)

/-- The body's exponentials at `(n, q, k)` are the specification's unnormalised weights of the row `(n, q)`. -/
theorem kExp_apply (L : FVec Ideal S32x64x64 .f32) (n : Fin 32) (q k : Fin 64) :
    kExp L (ix3 n q k) = ew (fun k' => L (ix3 n q k')) k := by
  show _ = Ideal.exp (L (ix3 n q k) - rmax (fun k' => L (ix3 n q k')))
  unfold kExp
  show Ideal.exp (L (ix3 n q k) - _) = _
  exact congrArg (fun m => Ideal.exp (L (ix3 n q k) - m)) ((rowBcast_apply _ n q k).trans (rowMax_apply L n q))

/-- The body's weights at `(n, q, k)` are the specification's softmax weights of the row `(n, q)`. -/
theorem kNorm_apply (L : FVec Ideal S32x64x64 .f32) (n : Fin 32) (q k : Fin 64) :
    kNorm (kExp L) (ix3 n q k) = sm (fun k' => L (ix3 n q k')) k := by
  show _ = Ideal.div (ew (fun k' => L (ix3 n q k')) k) (∑ k'' : Fin 64, ew (fun k' => L (ix3 n q k')) k'')
  unfold kNorm
  show Ideal.div (kExp L (ix3 n q k)) _ = _
  exact congrArg₂ Ideal.div (kExp_apply L n q k)
    ((rowBcast_apply _ n q k).trans ((rowSum_apply (kExp L) n q).trans
      (Finset.sum_congr rfl fun k' _ => kExp_apply L n q k')))

/-- THE GENERIC HEAD: at `(n, q, d)` the body's head `o` is the specification's head of the window's queries, keys and
    values at head `o`. -/
theorem kHead_apply (o : Nat) (ho : o < 8) (hs : S32x64x8x32.Slices ![0, 0, o, 0] S32x64x1x32)
    (v8 v10 v12 : FVec Ideal S32x64x8x32 .f32) (v14 : FVec Ideal S64x64 .f32) (n : Fin 32) (q : Fin 64) (d : Fin 32) :
    kHead o hs v8 v10 v12 v14 (ix3 n q d) = headSpec ⟨o, ho⟩ v8 v10 v12 v14 n q d := by
  show (matmul dot_S32x64x64_S32x64x32_S32x64x32_2_1_1_2_0_0 none (kNorm (kExp (kLogits o hs v8 v10 v14)))
      (truncf .bf16 (shapeCast S32x64x32 (extractStridedSlice S32x64x1x32 ![0, 0, o, 0] v12 hs) shapeCasts_S32x64x1x32_S32x64x32)
        bitsLt_bf16_f32) (constant S32x64x32 .f32 0x00000000#32) : FVec Ideal S32x64x32 .f32) (ix3 n q d)
    = ∑ k : Fin 64, sm (logits (fun d' => v8 (ix4 n q ⟨o, ho⟩ d')) (fun k' d' => v10 (ix4 n k' ⟨o, ho⟩ d'))
        (fun k' => v14 (ix2 q k'))) k * v12 (ix4 n k ⟨o, ho⟩ d)
  refine (pv_apply _ _ n q d).trans ?_
  refine Finset.sum_congr rfl fun k _ => congrArg₂ (· * ·) ?_ (sliceHead_apply o ho hs v12 n k d)
  refine (kNorm_apply _ n q k).trans ?_
  have e : (fun k' => kLogits o hs v8 v10 v14 (ix3 n q k'))
      = logits (fun d' => v8 (ix4 n q ⟨o, ho⟩ d')) (fun k' d' => v10 (ix4 n k' ⟨o, ho⟩ d')) (fun k' => v14 (ix2 q k')) :=
    funext fun k' => kLogits_apply o ho hs v8 v10 v14 n q k'
  rw [e]

variable (v8 v10 v12 : FVec Ideal S32x64x8x32 .f32) (v14 : FVec Ideal S64x64 .f32) (n : Fin 32) (q : Fin 64) (d : Fin 32)

/-! The eight heads of the body are the generic head at offsets 0 … 7: each payload unfolds to the generic term. -/

theorem head0 (v0 : Vec Ideal S1x2048x256 .f32) (v3 : Vec Ideal S256x768 .bf16) (v13 : Vec Ideal S64x64 .f32) (n : Fin 32) (q : Fin 64) (d : Fin 32) :
    k0_pay7 (F := Ideal) v0 v3 v13 (ix3 n q d) = headSpec 0 (k0_pay3 v0 v3) (k0_pay4 v0 v3) (k0_pay5 v0 v3) (k0_pay6 v13) n q d :=
  kHead_apply 0 (by decide) slices_S32x64x8x32_o0_0_0_0_S32x64x1x32 (k0_pay3 v0 v3) (k0_pay4 v0 v3) (k0_pay5 v0 v3) (k0_pay6 v13) n q d
theorem head1 : k0_pay9 (F := Ideal) v10 v12 v14 (extractStridedSlice S32x64x1x32 ![0, 0, 1, 0] v8 slices_S32x64x8x32_o0_0_1_0_S32x64x1x32) (ix3 n q d) = headSpec 1 v8 v10 v12 v14 n q d :=
  kHead_apply 1 (by decide) slices_S32x64x8x32_o0_0_1_0_S32x64x1x32 v8 v10 v12 v14 n q d
theorem head2 : k0_pay12 (F := Ideal) (k0_pay10 v12) (k0_pay11 v8 v10 v14) (ix3 n q d) = headSpec 2 v8 v10 v12 v14 n q d :=
  kHead_apply 2 (by decide) slices_S32x64x8x32_o0_0_2_0_S32x64x1x32 v8 v10 v12 v14 n q d
theorem head3 : k0_pay13 (F := Ideal) v8 v10 v12 v14 (ix3 n q d) = headSpec 3 v8 v10 v12 v14 n q d :=
  kHead_apply 3 (by decide) slices_S32x64x8x32_o0_0_3_0_S32x64x1x32 v8 v10 v12 v14 n q d
theorem head4 : k0_pay17 (F := Ideal) (k0_pay14 v12) (k0_pay15 v8 v10 v14) (k0_pay16 v8 v10 v14) (ix3 n q d) = headSpec 4 v8 v10 v12 v14 n q d :=
  kHead_apply 4 (by decide) slices_S32x64x8x32_o0_0_4_0_S32x64x1x32 v8 v10 v12 v14 n q d
theorem head5 : k0_pay18 (F := Ideal) v8 v10 v12 v14 (ix3 n q d) = headSpec 5 v8 v10 v12 v14 n q d :=
  kHead_apply 5 (by decide) slices_S32x64x8x32_o0_0_5_0_S32x64x1x32 v8 v10 v12 v14 n q d
theorem head6 : k0_pay21 (F := Ideal) v14 (k0_pay19 v12) (k0_pay20 v8 v10) (ix3 n q d) = headSpec 6 v8 v10 v12 v14 n q d :=
  kHead_apply 6 (by decide) slices_S32x64x8x32_o0_0_6_0_S32x64x1x32 v8 v10 v12 v14 n q d
theorem head7 : k0_pay22 (F := Ideal) v8 v10 v12 v14 (ix3 n q d) = headSpec 7 v8 v10 v12 v14 n q d :=
  kHead_apply 7 (by decide) slices_S32x64x8x32_o0_0_7_0_S32x64x1x32 v8 v10 v12 v14 n q d

end Cert.KSide
end
-- ==== Proof.KBlock.lean ====
/-
  What the kernel body leaves in the output block, entry by entry.

  The body's one store writes the last stage's value. Its eight head outputs are the eight heads of the specification on
  the block's queries, keys and values (the three slices of the projected block), so the entry (row `n·64 + q`, `o`) of the
  output block is the whole window layer on the input block's rows `n·64 + ·`, at token `q` and output channel `o`, with the
  two weight blocks read transposed (the blocks hold the transposed matrices).
-/
import proofs.«172021_j62835371541012_1_alg».proof.Proof.Gen.KernelIdeal.Frame
import proofs.«172021_j62835371541012_1_alg».proof.Proof.KProj
import proofs.«172021_j62835371541012_1_alg».proof.Proof.KHeads

set_option maxRecDepth 16384

noncomputable section

namespace Cert.KSide

open Cert.KernelIdeal Cert.KernelIdeal.Gen Idealize.ShloMosaic Idealize.ShloMosaic.ValueIdx Cert.WinAttn

/-- The bias block is loaded as it is. -/
theorem pay6_at (v13 : Vec Ideal S64x64 .f32) (q : Fin 64) (k : Fin 64) : k0_pay6 (F := Ideal) v13 (ix2 q k) = v13 (ix2 q k) := by
  unfold k0_pay6
  rw [shapeCast_self]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- What the body leaves in the output block, at (row `n·64 + q`, channel `o`): the whole layer on the block's window `n`,
    whose rows are the input block's rows `n·64 + ·`; the weight blocks are read transposed. -/
theorem block_at (x0 : Vec Ideal S1x2048x256 .f32) (x1 : Vec Ideal S256x768 .bf16) (x2 : Vec Ideal S256x256 .bf16)
    (x3 : Vec Ideal S256 .f32) (x4 : Vec Ideal S64x64 .f32) (n : Fin 32) (q : Fin 64) (o : Fin 256) :
    out0_5 (F := Ideal) x0 x1 x2 x3 x4 (ix3 (0 : Fin 1) (blkRow n q) o)
      = outW (fun q' c' => x0 (ix3 (0 : Fin 1) (blkRow n q') c')) (fun j c => x1 (ix2 c j)) (fun o' c => x2 (ix2 c o'))
          (fun o' => x3 (ix1 o')) (fun q' k => x4 (ix2 q' k)) q o := by
  unfold out0_5
  rw [View.canon_unit_zero hz3]
  simp only [View.ld_unit_zero (S := S1x2048x256) hz3, View.ld_unit_zero (S := S256x768) hz2, View.ld_unit_zero (S := S64x64) hz2,
    View.ld_unit_zero (S := S256x256) hz2, View.ld_unit_zero (S := S256) hz1]
  refine (pay1_at _ _ _ _ _ _ _ _ x2 x3 n q o
    (fun h d => headSpec h (k0_pay3 x0 x1) (k0_pay4 x0 x1) (k0_pay5 x0 x1) (k0_pay6 x4) n q d)
    (fun d => (addUnit_at (k0_pay7 x0 x1 x4) n q d).trans (head0 x0 x1 x4 n q d))
    (fun d => (addUnit_at _ n q d).trans (head1 (k0_pay3 x0 x1) (k0_pay4 x0 x1) (k0_pay5 x0 x1) (k0_pay6 x4) n q d))
    (fun d => (addUnit_at _ n q d).trans (head2 (k0_pay3 x0 x1) (k0_pay4 x0 x1) (k0_pay5 x0 x1) (k0_pay6 x4) n q d))
    (fun d => head3 (k0_pay3 x0 x1) (k0_pay4 x0 x1) (k0_pay5 x0 x1) (k0_pay6 x4) n q d)
    (fun d => head4 (k0_pay3 x0 x1) (k0_pay4 x0 x1) (k0_pay5 x0 x1) (k0_pay6 x4) n q d)
    (fun d => head5 (k0_pay3 x0 x1) (k0_pay4 x0 x1) (k0_pay5 x0 x1) (k0_pay6 x4) n q d)
    (fun d => head6 (k0_pay3 x0 x1) (k0_pay4 x0 x1) (k0_pay5 x0 x1) (k0_pay6 x4) n q d)
    (fun d => head7 (k0_pay3 x0 x1) (k0_pay4 x0 x1) (k0_pay5 x0 x1) (k0_pay6 x4) n q d)).trans ?_
  unfold outW attnW
  simp only [headSpec, pay3_at, pay4_at, pay5_at, pay6_at]
  rfl

end Cert.KSide

end
-- ==== Proof.Layer.lean ====
/-
  The whole layer as one function of the argument arrays.

  The token array is [8 batch rows, 16384 tokens, 256 channels]; token `l` of a batch row is token `l % 64` of window
  `l / 64`. The result at (b, l, o) is the window layer of Spec.lean on that window's 64 rows, at token `l % 64` and output
  channel `o`. Both weight matrices are used as they are given ([768, 256] and [256, 256], contracted on their last
  axis); the bias table is a parameter (both programs gather it from the relative-position vector in the same way).
-/
import proofs.«172021_j62835371541012_1_alg».proof.Proof.Spec
import Idealize.ShloMosaic.Lib.ValueIdx

noncomputable section

namespace Cert.WinAttn

open Idealize.ShloMosaic Idealize.ShloMosaic.ValueIdx

/-- The layer's result at batch row `b`, token `l`, output channel `o`. -/
def layerAt (x0 : (⟨3, ![8, 16384, 256]⟩ : Shape).Idx → EReal) (x1 : (⟨2, ![768, 256]⟩ : Shape).Idx → EReal)
    (x2 : (⟨2, ![256, 256]⟩ : Shape).Idx → EReal) (x3 : (⟨1, ![256]⟩ : Shape).Idx → EReal) (B : Fin 64 → Fin 64 → EReal)
    (b : Fin 8) (l : Fin 16384) (o : Fin 256) : EReal :=
  outW (fun q' c' => x0 (ix3 b (rowIx ⟨l.val / 64, by have := l.isLt; omega⟩ q') c')) (fun j c => x1 (ix2 j c))
    (fun o' c => x2 (ix2 o' c)) (fun o' => x3 (ix1 o')) B ⟨l.val % 64, by omega⟩ o

/-- The layer's result array. -/
def layer (x0 : (⟨3, ![8, 16384, 256]⟩ : Shape).Idx → EReal) (x1 : (⟨2, ![768, 256]⟩ : Shape).Idx → EReal)
    (x2 : (⟨2, ![256, 256]⟩ : Shape).Idx → EReal) (x3 : (⟨1, ![256]⟩ : Shape).Idx → EReal) (B : Fin 64 → Fin 64 → EReal) :
    (⟨3, ![8, 16384, 256]⟩ : Shape).Idx → EReal :=
  fun i => layerAt x0 x1 x2 x3 B (i 0) (i 1) (i 2)

/-- The window layer depends on its arguments only through their values. -/
theorem outW_congr {Xw Xw' : Fin 64 → Fin 256 → EReal} {Wq Wq' : Fin 768 → Fin 256 → EReal} {Wp Wp' : Fin 256 → Fin 256 → EReal}
    {bp bp' : Fin 256 → EReal} {B B' : Fin 64 → Fin 64 → EReal} {q q' : Fin 64} {o o' : Fin 256}
    (h1 : Xw = Xw') (h2 : Wq = Wq') (h3 : Wp = Wp') (h4 : bp = bp') (h5 : B = B') (h6 : q = q') (h7 : o = o') :
    outW Xw Wq Wp bp B q o = outW Xw' Wq' Wp' bp' B' q' o' := by
  subst h1 h2 h3 h4 h5 h6 h7; rfl

end Cert.WinAttn

end
-- ==== Proof.KArray.lean ====
/-
  From the blocks to the result array, and the kernel's run.

  The grid has 8 × 8 points: point (b, k) stages the block of batch row `b` holding tokens `2048·k … 2048·k + 2047` of the
  token array and of the result array, and the whole of the two (transposed) weight matrices, the bias vector and the bias
  table. A block holds 32 whole windows, so what point (b, k) writes back is the layer's result restricted to its block; the
  64 blocks tile the result array, so after the run the array is the layer of the argument arrays.
-/
import proofs.«172021_j62835371541012_1_alg».proof.Proof.Gen.KernelIdeal.Value
import proofs.«172021_j62835371541012_1_alg».proof.Proof.KBlock
import proofs.«172021_j62835371541012_1_alg».proof.Proof.Layer
import Idealize.ShloMosaic.Lib.StableHlo.Run

set_option maxRecDepth 16384

noncomputable section

namespace Cert.KSide

open Cert.KernelIdeal Cert.KernelIdeal.Gen Idealize.ShloMosaic Idealize.ShloMosaic.ValueIdx Cert.WinAttn
open Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- Every row of a 2048-row block is token `r % 64` of the block's window `r / 64`. -/
theorem idx_split (j : S1x2048x256.Idx) :
    j = ix3 (0 : Fin 1) (blkRow ⟨(j 1).val / 64, by have h1 : (j 1).val < 2048 := (j 1).isLt; omega⟩ ⟨(j 1).val % 64, by omega⟩) (j 2) := by
  funext a
  match a with
  | ⟨0, _⟩ => exact Fin.ext (by have h0 : (j 0).val < 1 := (j 0).isLt; show (j 0).val = 0; omega)
  | ⟨1, _⟩ => exact Fin.ext (by show (j 1).val = (j 1).val / 64 * 64 + (j 1).val % 64; omega)
  | ⟨2, _⟩ => rfl

/-- `block_at` at any index of the block. -/
theorem block_at' (x0 : Vec Ideal S1x2048x256 .f32) (x1 : Vec Ideal S256x768 .bf16) (x2 : Vec Ideal S256x256 .bf16)
    (x3 : Vec Ideal S256 .f32) (x4 : Vec Ideal S64x64 .f32) (j : S1x2048x256.Idx) :
    out0_5 (F := Ideal) x0 x1 x2 x3 x4 j
      = outW (fun q' c' => x0 (ix3 (0 : Fin 1) (blkRow ⟨(j 1).val / 64, by have h1 : (j 1).val < 2048 := (j 1).isLt; omega⟩ q') c'))
          (fun j' c => x1 (ix2 c j')) (fun o' c => x2 (ix2 c o')) (fun o' => x3 (ix1 o')) (fun q' k => x4 (ix2 q' k))
          ⟨(j 1).val % 64, by omega⟩ (j 2) :=
  (congrArg (out0_5 (F := Ideal) x0 x1 x2 x3 x4) (idx_split j)).trans (block_at x0 x1 x2 x3 x4 _ _ _)

/-- The windows' index maps, decided over the 64 grid points: the token block and the output block move together (batch row,
    block of 2048 tokens, all channels); every other window is its whole array at every point. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0 ∧ win0_5.index t (2 : Fin 3) = 0
    ∧ win0_5.index t (0 : Fin 3) ≤ 7 ∧ win0_5.index t (1 : Fin 3) ≤ 7
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0 :=
  (by decide +kernel : ∀ t : Fin grid0.N, _)

/-- Every block of the result is some point's. -/
theorem idx_onto : ∀ (q0 : Fin 8) (q1 : Fin 8), ∃ t : Fin cfg0.N, win0_5.index t = ![q0.val, q1.val, 0] :=
  (by decide +kernel : ∀ (q0 : Fin 8) (q1 : Fin 8), ∃ t : Fin grid0.N, win0_5.index t = ![q0.val, q1.val, 0])

/-- The first weight matrix as the region finds it staged: transposed (and narrowed, which changes nothing here). -/
theorem V_v18 (c : Dev nD) : (V m c main_v18 : S256x768.Idx → EReal)
    = (truncf (F := Ideal) .bf16 (transpose S256x768 [1, 0] (m ((c : Thread nD τ).loc main_arg1) : S768x256.Idx → Ideal .f32) transposes_S768x256_S256x768_1_0) bitsLt_bf16_f32 : S256x768.Idx → EReal) := by
  dsimp only [V, hostOps0]; after_results

/-- The second weight matrix as the region finds it staged. -/
theorem V_v20 (c : Dev nD) : (V m c main_v20 : S256x256.Idx → EReal)
    = (truncf (F := Ideal) .bf16 (transpose S256x256 [1, 0] (m ((c : Thread nD τ).loc main_arg2) : S256x256.Idx → Ideal .f32) transposes_S256x256_S256x256_1_0) bitsLt_bf16_f32 : S256x256.Idx → EReal) := by
  dsimp only [V, hostOps0]; after_results

theorem V_v18_at (c : Dev nD) (cc : Fin 256) (jj : Fin 768) :
    (V m c main_v18 : S256x768.Idx → EReal) (ix2 cc jj) = (m ((c : Thread nD τ).loc main_arg1) : S768x256.Idx → EReal) (ix2 jj cc) := by
  rw [V_v18]
  refine (truncf_apply (ψ := .bf16) _ bitsLt_bf16_f32 (ix2 cc jj)).trans ?_
  exact transpose_apply [1, 0] _ transposes_S768x256_S256x768_1_0 (ix2 cc jj) (ix2 jj cc)
    (fun b => match b with | ⟨0, _⟩ => rfl | ⟨1, _⟩ => rfl)

theorem V_v20_at (c : Dev nD) (cc : Fin 256) (oo : Fin 256) :
    (V m c main_v20 : S256x256.Idx → EReal) (ix2 cc oo) = (m ((c : Thread nD τ).loc main_arg2) : S256x256.Idx → EReal) (ix2 oo cc) := by
  rw [V_v20]
  refine (truncf_apply (ψ := .bf16) _ bitsLt_bf16_f32 (ix2 cc oo)).trans ?_
  exact transpose_apply [1, 0] _ transposes_S256x256_S256x256_1_0 (ix2 cc oo) (ix2 oo cc)
    (fun b => match b with | ⟨0, _⟩ => rfl | ⟨1, _⟩ => rfl)

/-- The bias table as the region finds it staged (the host's gather of the relative-position vector), entry by entry. -/
def biasK (c : Dev nD) : Fin 64 → Fin 64 → EReal := fun q k => (V m c main_v16 : S64x64.Idx → EReal) (ix2 q k)

/-- The kernel's result array: the layer of the argument arrays, with the staged bias table. -/
def GK (c : Dev nD) : S8x16384x256.Idx → EReal :=
  layer (m ((c : Thread nD τ).loc main_arg0)) (m ((c : Thread nD τ).loc main_arg1)) (m ((c : Thread nD τ).loc main_arg2))
    (m ((c : Thread nD τ).loc main_arg3)) (biasK m c)

/-- WHAT POINT `t` WRITES BACK is block `t` of the layer's result array. -/
theorem flushed_eq (c : Dev nD) (t : Fin cfg0.N) :
    (dats m 0 c).flushed 5 t = ((cfg0.win 5).blk t).view.read (Elt Ideal) (GK m c) := by
  rw [Cert.KernelIdeal.Value.flushed5]
  obtain ⟨f0, f1, f2, f3, f4, f5, g10, g11, g20, g21, g30, g40, g41⟩ := idx_facts t
  funext j
  show out0_5 (F := Ideal) (iblk m c 0 t) (iblk m c 1 t) (iblk m c 2 t) (iblk m c 3 t) (iblk m c 4 t) j
    = GK m c (((cfg0.win 5).blk t).view.emb j)
  refine (block_at' (iblk m c 0 t) (iblk m c 1 t) (iblk m c 2 t) (iblk m c 3 t) (iblk m c 4 t) j).trans ?_
  have hj0 : (j 0).val < 1 := (j 0).isLt
  have hj1 : (j 1).val < 2048 := (j 1).isLt
  have hj2 : (j 2).val < 256 := (j 2).isLt
  unfold GK layer layerAt
  refine outW_congr ?_ ?_ ?_ ?_ ?_ ?_ ?_
  · funext q' c'
    show V m c main_arg0 (((cfg0.win 0).blk t).view.emb (ix3 (0 : Fin 1) (blkRow ⟨(j 1).val / 64, by omega⟩ q') c')) = _
    rw [V_main_arg0]
    refine congrArg _ (funext fun a => Fin.ext ?_)
    have hq : q'.val < 64 := q'.isLt
    match a with
    | ⟨0, _⟩ =>
      show win0_0.index t (0 : Fin 3) * 1 + 1 * 0 = win0_5.index t (0 : Fin 3) * 1 + 1 * (j 0).val
      omega
    | ⟨1, _⟩ =>
      show win0_0.index t (1 : Fin 3) * 2048 + 1 * ((j 1).val / 64 * 64 + q'.val)
        = (win0_5.index t (1 : Fin 3) * 2048 + 1 * (j 1).val) / 64 * 64 + q'.val
      omega
    | ⟨2, _⟩ =>
      show win0_0.index t (2 : Fin 3) * 256 + 1 * c'.val = c'.val
      omega
  · funext jj cc
    show V m c main_v18 (((cfg0.win 1).blk t).view.emb (ix2 cc jj)) = _
    refine Eq.trans (congrArg _ (funext fun a => Fin.ext ?_)) (V_v18_at m c cc jj)
    match a with
    | ⟨0, _⟩ => show win0_1.index t (0 : Fin 2) * 256 + 1 * cc.val = cc.val; omega
    | ⟨1, _⟩ => show win0_1.index t (1 : Fin 2) * 768 + 1 * jj.val = jj.val; omega
  · funext oo cc
    show V m c main_v20 (((cfg0.win 2).blk t).view.emb (ix2 cc oo)) = _
    refine Eq.trans (congrArg _ (funext fun a => Fin.ext ?_)) (V_v20_at m c cc oo)
    match a with
    | ⟨0, _⟩ => show win0_2.index t (0 : Fin 2) * 256 + 1 * cc.val = cc.val; omega
    | ⟨1, _⟩ => show win0_2.index t (1 : Fin 2) * 256 + 1 * oo.val = oo.val; omega
  · funext oo
    show V m c main_arg3 (((cfg0.win 3).blk t).view.emb (ix1 oo)) = _
    rw [V_main_arg3]
    refine congrArg _ (funext fun a => Fin.ext ?_)
    match a with
    | ⟨0, _⟩ => show win0_3.index t (0 : Fin 1) * 256 + 1 * oo.val = oo.val; omega
  · funext q' k
    show V m c main_v16 (((cfg0.win 4).blk t).view.emb (ix2 q' k)) = V m c main_v16 (ix2 q' k)
    refine congrArg _ (funext fun a => Fin.ext ?_)
    match a with
    | ⟨0, _⟩ => show win0_4.index t (0 : Fin 2) * 64 + 1 * q'.val = q'.val; omega
    | ⟨1, _⟩ => show win0_4.index t (1 : Fin 2) * 64 + 1 * k.val = k.val; omega
  · refine Fin.ext ?_
    show (j 1).val % 64 = (win0_5.index t (1 : Fin 3) * 2048 + 1 * (j 1).val) % 64
    omega
  · refine Fin.ext ?_
    show (j 2).val = win0_5.index t (2 : Fin 3) * 256 + 1 * (j 2).val
    omega

/-- An index of the result array is in point `t`'s block iff each coordinate is in the block's range on its axis. -/
theorem mem_blk (t : Fin cfg0.N) (i : S8x16384x256.Idx) :
    i ∈ ((cfg0.win 5).blk t).view.set ↔ ∀ a : Fin 3, win0_5.index t a * S1x2048x256.size a ≤ (i a).val
      ∧ (i a).val < win0_5.index t a * S1x2048x256.size a + S1x2048x256.size a := by
  show i ∈ ((View.whole main_v21).slice (win0_5.rect t)).set ↔ _
  rw [View.set_slice_whole, Rect.mem_set_unit]
  exact Iff.rfl

/-- The 64 blocks tile the result array: entry (b, l, ·) lies in the block of batch row `b` and token block `l / 2048`. -/
theorem cover (i : S8x16384x256.Idx) : ∃ t : Fin cfg0.N, (cfg0.win 5).flush t = true ∧ i ∈ ((cfg0.win 5).blk t).view.set := by
  have hi0 : (i 0).val < 8 := (i 0).isLt
  have hi1 : (i 1).val < 16384 := (i 1).isLt
  have hi2 : (i 2).val < 256 := (i 2).isLt
  obtain ⟨t, ht⟩ := idx_onto ⟨(i 0).val, hi0⟩ ⟨(i 1).val / 2048, by omega⟩
  have q0 : win0_5.index t (0 : Fin 3) = (i 0).val := congrFun ht 0
  have q1 : win0_5.index t (1 : Fin 3) = (i 1).val / 2048 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 2048 ≤ (i 1).val ∧ (i 1).val < win0_5.index t (1 : Fin 3) * 2048 + 2048; omega
  | ⟨2, _⟩ => show win0_5.index t (2 : Fin 3) * 256 ≤ (i 2).val ∧ (i 2).val < win0_5.index t (2 : Fin 3) * 256 + 256; omega

/-- THE RESULT ARRAY after the run is the layer of the argument arrays. -/
theorem final (c : Dev nD) : (dats m 0 c).arrAt 5 cfg0.N = GK m c :=
  (dats m 0 c).arrAt_eq_of_cover 5 (GK m c) (fun t _ => flushed_eq m c t) cover

/-- The kernel's run: every weakly fair execution terminates with the result array at the layer of the argument arrays, the
    arguments unchanged. -/
theorem run : θ_run defs (onTc (τ := τ) (main (F := Ideal))) ⟨m, fun _ => 0, ρ⟩ fun r => ∀ c : Dev nD,
      r.2.mem ((c : Thread nD τ).loc main_v21) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KSide

end
-- ==== Proof.RefQKV.lean ====
import proofs.«172021_j62835371541012_1_alg».proof.Proof.Gen.ReferenceIdeal.Read
import proofs.«172021_j62835371541012_1_alg».proof.Proof.Spec
import Idealize.ShloMosaic.Lib.ValueIdxRank6
set_option maxRecDepth 16384
noncomputable section
namespace Cert.RefSide
open Cert.ReferenceIdeal Cert.ReferenceIdeal.Read Idealize.ShloMosaic Idealize.ShloMosaic.ValueIdx Cert.WinAttn
open Cert.ReferenceIdeal.Gen

/-! ### The projected numbers: operations %0 … %2

%0 splits the 16384 token rows into 256 windows of 64, %1 contracts the channel axis with the projection's, and %2
splits the 768 projected numbers into part, head and coordinate. -/

/-- Row nw·64 + q of the tokens is token q of window nw. -/
theorem idx_v0 (b : Fin 8) (nw : Fin 256) (q : Fin 64) (c : Fin 256) :
    idx_main_v0 (ix4 b nw q c) = ix3 b (rowIx nw q) c := by
  have hb := b.isLt; have hn := nw.isLt; have hq := q.isLt; have hc := c.isLt
  funext a
  refine Fin.ext ?_
  match a with
  | ⟨0, _⟩ => show (((b.val * 256 + nw.val) * 64 + q.val) * 256 + c.val) / 4194304 = b.val; omega
  | ⟨1, _⟩ => show (((b.val * 256 + nw.val) * 64 + q.val) * 256 + c.val) / 256 % 16384 = nw.val * 64 + q.val; omega
  | ⟨2, _⟩ => show (((b.val * 256 + nw.val) * 64 + q.val) * 256 + c.val) % 256 = c.val; omega

theorem lidx_v1 (b : Fin 8) (nw : Fin 256) (q : Fin 64) (j : Fin 768) (c : Fin 256) :
    lidx_main_v1 (ix4 b nw q j) c = ix4 b nw q c := by
  funext a
  match a with
  | ⟨0, _⟩ => rfl
  | ⟨1, _⟩ => rfl
  | ⟨2, _⟩ => rfl
  | ⟨3, _⟩ => rfl

theorem ridx_v1 (b : Fin 8) (nw : Fin 256) (q : Fin 64) (j : Fin 768) (c : Fin 256) :
    ridx_main_v1 (ix4 b nw q j) c = ix2 j c := by
  funext a
  match a with
  | ⟨0, _⟩ => rfl
  | ⟨1, _⟩ => rfl

/-- Operation %1 at token q of window nw and projected number j. -/
theorem v1_read (x0 : (⟨S8x16384x256, .f32⟩ : BufTy).Contents (Elt Ideal)) (x1 : (⟨S768x256, .f32⟩ : BufTy).Contents (Elt Ideal))
    (b : Fin 8) (nw : Fin 256) (q : Fin 64) (j : Fin 768) :
    val_main_v1 (F := Ideal) x0 x1 (ix4 b nw q j)
      = qkvW (fun q' c' => x0 (ix3 b (rowIx nw q') c')) (fun j c => x1 (ix2 j c)) q j := by
  rw [val_main_v1_apply]
  unfold qkvW
  refine Finset.sum_congr rfl fun c _ => ?_
  rw [lidx_v1, ridx_v1, val_main_v0_apply, idx_v0]

/-- Operation %2: the projected number s·256 + h·32 + d is coordinate d of head h of part s. -/
theorem v2_read (x0 : (⟨S8x16384x256, .f32⟩ : BufTy).Contents (Elt Ideal)) (x1 : (⟨S768x256, .f32⟩ : BufTy).Contents (Elt Ideal))
    (b : Fin 8) (nw : Fin 256) (q : Fin 64) (s : Fin 3) (h : Fin 8) (d : Fin 32) :
    val_main_v2 (F := Ideal) x0 x1 (ix6 b nw q s h d)
      = qkvW (fun q' c' => x0 (ix3 b (rowIx nw q') c')) (fun j c => x1 (ix2 j c)) q (colIx s h d) := by
  rw [← v1_read]
  unfold val_main_v2
  generalize val_main_v1 (F := Ideal) x0 x1 = y
  refine shapeCast_apply y shapeCasts_S8x256x64x768_S8x256x64x3x8x32 (ix6 b nw q s h d) (ix4 b nw q (colIx s h d)) ?_
  rewrite [Shape.rowMajor_val_four, Shape.rowMajor_val_six]
  have hb := b.isLt; have hn := nw.isLt; have hq := q.isLt; have hs := s.isLt; have hh := h.isLt; have hd := d.isLt
  show ((b.val * 256 + nw.val) * 64 + q.val) * 768 + (s.val * 256 + h.val * 32 + d.val)
    = ((((b.val * 256 + nw.val) * 64 + q.val) * 3 + s.val) * 8 + h.val) * 32 + d.val
  omega

/-! ### Queries, keys and values: slice part s, drop the unit axis, swap token and head -/

/-- Dropping the unit axis of [8,256,64,1,8,32] (operations %4, %7, %10). -/
theorem dropUnit_read (y : (⟨S8x256x64x1x8x32, .f32⟩ : BufTy).Contents (Elt Ideal))
    (b : Fin 8) (nw : Fin 256) (q : Fin 64) (h : Fin 8) (d : Fin 32) :
    shapeCast S8x256x64x8x32 y shapeCasts_S8x256x64x1x8x32_S8x256x64x8x32 (ix5 b nw q h d) = y (ix6 b nw q (0 : Fin 1) h d) := by
  refine shapeCast_apply y shapeCasts_S8x256x64x1x8x32_S8x256x64x8x32 (ix5 b nw q h d) (ix6 b nw q (0 : Fin 1) h d) ?_
  rewrite [Shape.rowMajor_val_six, Shape.rowMajor_val_five]
  have hb := b.isLt; have hn := nw.isLt; have hq := q.isLt; have hh := h.isLt; have hd := d.isLt
  show ((((b.val * 256 + nw.val) * 64 + q.val) * 1 + 0) * 8 + h.val) * 32 + d.val
    = (((b.val * 256 + nw.val) * 64 + q.val) * 8 + h.val) * 32 + d.val
  omega

/-- The transposes %5, %8, %11 swap token and head. -/
theorem idx_v5 (b : Fin 8) (nw : Fin 256) (h : Fin 8) (q : Fin 64) (d : Fin 32) :
    idx_main_v5 (ix5 b nw h q d) = ix5 b nw q h d := by
  funext a
  match a with
  | ⟨0, _⟩ => rfl
  | ⟨1, _⟩ => rfl
  | ⟨2, _⟩ => rfl
  | ⟨3, _⟩ => rfl
  | ⟨4, _⟩ => rfl

theorem idx_v3 (b : Fin 8) (nw : Fin 256) (q : Fin 64) (h : Fin 8) (d : Fin 32) :
    idx_main_v3 (ix6 b nw q (0 : Fin 1) h d) = ix6 b nw q (0 : Fin 3) h d := by
  funext a
  match a with
  | ⟨0, _⟩ => rfl
  | ⟨1, _⟩ => rfl
  | ⟨2, _⟩ => rfl
  | ⟨3, _⟩ => rfl
  | ⟨4, _⟩ => rfl
  | ⟨5, _⟩ => rfl

/-- the reference's queries: operations %0 … %5 -/
theorem ref_q (x0 : (⟨S8x16384x256, .f32⟩ : BufTy).Contents (Elt Ideal)) (x1 : (⟨S768x256, .f32⟩ : BufTy).Contents (Elt Ideal))
    (b : Fin 8) (nw : Fin 256) (h : Fin 8) (q : Fin 64) (d : Fin 32) :
    val_main_v5 (F := Ideal) x0 x1 (ix5 b nw h q d)
      = qkvW (fun q' c' => x0 (ix3 b (rowIx nw q') c')) (fun j c => x1 (ix2 j c)) q (colIx 0 h d) := by
  rw [val_main_v5_apply, idx_v5]
  unfold val_main_v4
  rw [dropUnit_read, val_main_v3_apply, idx_v3, v2_read]

theorem idx_v8 (b : Fin 8) (nw : Fin 256) (h : Fin 8) (q : Fin 64) (d : Fin 32) :
    idx_main_v8 (ix5 b nw h q d) = ix5 b nw q h d := by
  funext a
  match a with
  | ⟨0, _⟩ => rfl
  | ⟨1, _⟩ => rfl
  | ⟨2, _⟩ => rfl
  | ⟨3, _⟩ => rfl
  | ⟨4, _⟩ => rfl

theorem idx_v6 (b : Fin 8) (nw : Fin 256) (q : Fin 64) (h : Fin 8) (d : Fin 32) :
    idx_main_v6 (ix6 b nw q (0 : Fin 1) h d) = ix6 b nw q (1 : Fin 3) h d := by
  funext a
  match a with
  | ⟨0, _⟩ => rfl
  | ⟨1, _⟩ => rfl
  | ⟨2, _⟩ => rfl
  | ⟨3, _⟩ => rfl
  | ⟨4, _⟩ => rfl
  | ⟨5, _⟩ => rfl

/-- the reference's keys: operations %6 … %8 -/
theorem ref_k (x0 : (⟨S8x16384x256, .f32⟩ : BufTy).Contents (Elt Ideal)) (x1 : (⟨S768x256, .f32⟩ : BufTy).Contents (Elt Ideal))
    (b : Fin 8) (nw : Fin 256) (h : Fin 8) (q : Fin 64) (d : Fin 32) :
    val_main_v8 (F := Ideal) x0 x1 (ix5 b nw h q d)
      = qkvW (fun q' c' => x0 (ix3 b (rowIx nw q') c')) (fun j c => x1 (ix2 j c)) q (colIx 1 h d) := by
  rw [val_main_v8_apply, idx_v8]
  unfold val_main_v7
  rw [dropUnit_read, val_main_v6_apply, idx_v6, v2_read]

theorem idx_v11 (b : Fin 8) (nw : Fin 256) (h : Fin 8) (q : Fin 64) (d : Fin 32) :
    idx_main_v11 (ix5 b nw h q d) = ix5 b nw q h d := by
  funext a
  match a with
  | ⟨0, _⟩ => rfl
  | ⟨1, _⟩ => rfl
  | ⟨2, _⟩ => rfl
  | ⟨3, _⟩ => rfl
  | ⟨4, _⟩ => rfl

theorem idx_v9 (b : Fin 8) (nw : Fin 256) (q : Fin 64) (h : Fin 8) (d : Fin 32) :
    idx_main_v9 (ix6 b nw q (0 : Fin 1) h d) = ix6 b nw q (2 : Fin 3) h d := by
  funext a
  match a with
  | ⟨0, _⟩ => rfl
  | ⟨1, _⟩ => rfl
  | ⟨2, _⟩ => rfl
  | ⟨3, _⟩ => rfl
  | ⟨4, _⟩ => rfl
  | ⟨5, _⟩ => rfl

/-- the reference's values: operations %9 … %11 -/
theorem ref_v (x0 : (⟨S8x16384x256, .f32⟩ : BufTy).Contents (Elt Ideal)) (x1 : (⟨S768x256, .f32⟩ : BufTy).Contents (Elt Ideal))
    (b : Fin 8) (nw : Fin 256) (h : Fin 8) (q : Fin 64) (d : Fin 32) :
    val_main_v11 (F := Ideal) x0 x1 (ix5 b nw h q d)
      = qkvW (fun q' c' => x0 (ix3 b (rowIx nw q') c')) (fun j c => x1 (ix2 j c)) q (colIx 2 h d) := by
  rw [val_main_v11_apply, idx_v11]
  unfold val_main_v10
  rw [dropUnit_read, val_main_v9_apply, idx_v9, v2_read]

/-! ### The output projection: operations %47 … %52

%47 puts the token axis back before the head axis, %48 lays the 8 heads' 32 coordinates side by side as 256 channels,
%49 contracts the channels with the output weights, and %50 … %52 add the bias, broadcast over batch, window and token. -/

theorem lidx_v49 (b : Fin 8) (nw : Fin 256) (w : Fin 64) (o : Fin 256) (c : Fin 256) :
    lidx_main_v49 (ix4 b nw w o) c = ix4 b nw w c := by
  funext a
  match a with
  | ⟨0, _⟩ => rfl
  | ⟨1, _⟩ => rfl
  | ⟨2, _⟩ => rfl
  | ⟨3, _⟩ => rfl

theorem ridx_v49 (b : Fin 8) (nw : Fin 256) (w : Fin 64) (o : Fin 256) (c : Fin 256) :
    ridx_main_v49 (ix4 b nw w o) c = ix2 o c := by
  funext a
  match a with
  | ⟨0, _⟩ => rfl
  | ⟨1, _⟩ => rfl

/-- Channel c is coordinate c % 32 of head c / 32. -/
theorem idx_v48 (b : Fin 8) (nw : Fin 256) (w : Fin 64) (c : Fin 256) :
    idx_main_v48 (ix4 b nw w c) = ix5 b nw w (headOf c) (coordOf c) := by
  have hb := b.isLt; have hn := nw.isLt; have hw := w.isLt; have hc := c.isLt
  funext a
  refine Fin.ext ?_
  match a with
  | ⟨0, _⟩ => show (((b.val * 256 + nw.val) * 64 + w.val) * 256 + c.val) / 4194304 = b.val; omega
  | ⟨1, _⟩ => show (((b.val * 256 + nw.val) * 64 + w.val) * 256 + c.val) / 16384 % 256 = nw.val; omega
  | ⟨2, _⟩ => show (((b.val * 256 + nw.val) * 64 + w.val) * 256 + c.val) / 256 % 64 = w.val; omega
  | ⟨3, _⟩ => show (((b.val * 256 + nw.val) * 64 + w.val) * 256 + c.val) / 32 % 8 = c.val / 32; omega
  | ⟨4, _⟩ => show (((b.val * 256 + nw.val) * 64 + w.val) * 256 + c.val) % 32 = c.val % 32; omega

theorem idx_v47 (b : Fin 8) (nw : Fin 256) (w : Fin 64) (h : Fin 8) (d : Fin 32) :
    idx_main_v47 (ix5 b nw w h d) = ix5 b nw h w d := by
  funext a
  match a with
  | ⟨0, _⟩ => rfl
  | ⟨1, _⟩ => rfl
  | ⟨2, _⟩ => rfl
  | ⟨3, _⟩ => rfl
  | ⟨4, _⟩ => rfl

theorem idx_v50_v51 (b : Fin 8) (nw : Fin 256) (w : Fin 64) (o : Fin 256) :
    idx_main_v50 (idx_main_v51 (ix4 b nw w o)) = ix1 o := by
  funext a
  match a with
  | ⟨0, _⟩ => rfl

/-- the reference's output projection: operations %47 … %52 over the attention output %46 -/
theorem ref_proj (x0 : (⟨S8x16384x256, .f32⟩ : BufTy).Contents (Elt Ideal)) (x1 : (⟨S768x256, .f32⟩ : BufTy).Contents (Elt Ideal))
    (x2 : (⟨S256x256, .f32⟩ : BufTy).Contents (Elt Ideal)) (x3 : (⟨S256, .f32⟩ : BufTy).Contents (Elt Ideal)) (x4 : (⟨S127, .f32⟩ : BufTy).Contents (Elt Ideal))
    (b : Fin 8) (nw : Fin 256) (w : Fin 64) (o : Fin 256) :
    val_main_v52 (F := Ideal) x0 x1 x2 x3 x4 (ix4 b nw w o)
      = projRow (fun c => val_main_v46 (F := Ideal) x0 x1 x4 (ix5 b nw (headOf c) w (coordOf c))) (fun o' c => x2 (ix2 o' c)) (fun o' => x3 (ix1 o')) o := by
  rw [val_main_v52_apply, val_main_v49_apply, val_main_v51_apply, val_main_v50_apply, idx_v50_v51]
  unfold projRow
  have hs : (∑ k : Fin 256, val_main_v48 (F := Ideal) x0 x1 x4 (lidx_main_v49 (ix4 b nw w o) k) * x2 (ridx_main_v49 (ix4 b nw w o) k))
      = ∑ c : Fin 256, val_main_v46 (F := Ideal) x0 x1 x4 (ix5 b nw (headOf c) w (coordOf c)) * x2 (ix2 o c) :=
    Finset.sum_congr rfl fun c _ => by
      rw [lidx_v49, ridx_v49, val_main_v48_apply, idx_v48, val_main_v47_apply, idx_v47]
  rw [hs]
  rfl

end Cert.RefSide
end
-- ==== Proof.RefHead.lean ====
import proofs.«172021_j62835371541012_1_alg».proof.Proof.Gen.ReferenceIdeal.Read
import proofs.«172021_j62835371541012_1_alg».proof.Proof.Spec
import Idealize.ShloMosaic.Lib.ValueIdxRank6
set_option maxRecDepth 16384
noncomputable section
namespace Cert.RefSide
open Cert.ReferenceIdeal Cert.ReferenceIdeal.Read Idealize.ShloMosaic Idealize.ShloMosaic.ValueIdx Cert.WinAttn

/-! ## Which operand entry each stage reads

Every stage between the logits and the head output reads its operands at the entry with the same batch row,
window, head and query token; only the last coordinate (a key token or a head coordinate) moves. -/

section Indices
variable (b : Fin 8) (nw : Fin 256) (h : Fin 8) (q k : Fin 64) (d : Fin 32)

/-- the query operand of the logit (q, k), at contraction coordinate d: query token q, coordinate d -/
theorem lidx12 : lidx_main_v12 (ix5 b nw h q k) d = ix5 b nw h q d :=
  funext fun a => match a with | ⟨0, _⟩ => rfl | ⟨1, _⟩ => rfl | ⟨2, _⟩ => rfl | ⟨3, _⟩ => rfl | ⟨4, _⟩ => rfl

/-- the key operand of the logit (q, k), at contraction coordinate d: key token k, coordinate d -/
theorem ridx12 : ridx_main_v12 (ix5 b nw h q k) d = ix5 b nw h k d :=
  funext fun a => match a with | ⟨0, _⟩ => rfl | ⟨1, _⟩ => rfl | ⟨2, _⟩ => rfl | ⟨3, _⟩ => rfl | ⟨4, _⟩ => rfl

/-- the bias entry the logit (q, k) of any batch row, window and head reads: (q, k) -/
theorem idx3233 : idx_main_v32 (idx_main_v33 (ix5 b nw h q k)) = ix2 q k :=
  funext fun a => match a with | ⟨0, _⟩ => rfl | ⟨1, _⟩ => rfl

/-- a row statistic broadcast back over the key tokens is read at the row (b, nw, h, q) -/
theorem idx3839 : idx_main_v38 (idx_main_v39 (ix5 b nw h q k)) = ix4 b nw h q :=
  funext fun a => match a with | ⟨0, _⟩ => rfl | ⟨1, _⟩ => rfl | ⟨2, _⟩ => rfl | ⟨3, _⟩ => rfl

theorem idx4344 : idx_main_v43 (idx_main_v44 (ix5 b nw h q k)) = ix4 b nw h q :=
  funext fun a => match a with | ⟨0, _⟩ => rfl | ⟨1, _⟩ => rfl | ⟨2, _⟩ => rfl | ⟨3, _⟩ => rfl

/-- the k-th term of the row sum of row (b, nw, h, q) is the entry (b, nw, h, q, k) -/
theorem idx42 : idx_main_v42 (ix4 b nw h q) k = ix5 b nw h q k :=
  funext fun a => match a with | ⟨0, _⟩ => rfl | ⟨1, _⟩ => rfl | ⟨2, _⟩ => rfl | ⟨3, _⟩ => rfl | ⟨4, _⟩ => rfl

/-- the weight operand of the head output (q, d), at key token k: the weight (q, k) -/
theorem lidx46 : lidx_main_v46 (ix5 b nw h q d) k = ix5 b nw h q k :=
  funext fun a => match a with | ⟨0, _⟩ => rfl | ⟨1, _⟩ => rfl | ⟨2, _⟩ => rfl | ⟨3, _⟩ => rfl | ⟨4, _⟩ => rfl

/-- the value operand of the head output (q, d), at key token k: value token k, coordinate d -/
theorem ridx46 : ridx_main_v46 (ix5 b nw h q d) k = ix5 b nw h k d :=
  funext fun a => match a with | ⟨0, _⟩ => rfl | ⟨1, _⟩ => rfl | ⟨2, _⟩ => rfl | ⟨3, _⟩ => rfl | ⟨4, _⟩ => rfl

end Indices

/-! ## The stages, one row at a time -/

section Stages
variable (x0 : (⟨S8x16384x256, .f32⟩ : BufTy).Contents (Elt Ideal)) (x1 : (⟨S768x256, .f32⟩ : BufTy).Contents (Elt Ideal))
  (x4 : (⟨S127, .f32⟩ : BufTy).Contents (Elt Ideal)) (b : Fin 8) (nw : Fin 256) (h : Fin 8) (q : Fin 64)

/-- The row of logits of query token q in head h of window nw of batch row b, as the specification writes it:
    over the queries, keys and gathered bias of the reference. -/
abbrev lrow : Fin 64 → EReal :=
  logits (fun d' => val_main_v5 (F := Ideal) x0 x1 (ix5 b nw h q d'))
    (fun k d' => val_main_v8 (F := Ideal) x0 x1 (ix5 b nw h k d'))
    (fun k => val_main_v31 (F := Ideal) x4 (ix2 q k))

/-- The scaled dot product plus the broadcast bias is the specification's logit. -/
theorem logits_at (k : Fin 64) :
    val_main_v34 (F := Ideal) x0 x1 x4 (ix5 b nw h q k) = lrow x0 x1 x4 b nw h q k := by
  rw [val_main_v34_apply, val_main_v14_apply, val_main_v12_apply, val_main_v13_apply, val_main_cst_apply,
    val_main_v33_apply, val_main_v32_apply, idx3233]
  simp only [lidx12, ridx12]
  rfl

/-- The row's maximum: the fold of max from the minus-infinity word over the 64 logits of the row, compared once
    more with that word. -/
theorem rmax_at :
    val_main_v37 (F := Ideal) x0 x1 x4 (ix4 b nw h q) = rmax (lrow x0 x1 x4 b nw h q) := by
  rw [val_main_v37_apply, val_main_v36_apply, val_main_cst_4_apply]
  unfold val_main_v35
  rw [Host.reduce_eq_fold_single (FloatOps.maximumf (F := Ideal) (φ := .f32)) (val_main_v34 (F := Ideal) x0 x1 x4)
    (val_main_cst_3 (F := Ideal)) Gen.reducesTo_S8x256x8x64x64_S8x256x8x64_d4 (by decide) Gen.h_S_ (ix4 b nw h q)]
  refine congrArg (max ninf) ?_
  refine congrArg (fun f => (Finset.univ : Finset (Fin 64)).fold max ninf f) ?_
  funext k
  exact (congrArg (val_main_v34 (F := Ideal) x0 x1 x4) (funext fun a => Fin.ext (by
    match a with | ⟨0, _⟩ => rfl | ⟨1, _⟩ => rfl | ⟨2, _⟩ => rfl | ⟨3, _⟩ => rfl | ⟨4, _⟩ => rfl))).trans
    (logits_at x0 x1 x4 b nw h q k)

/-- The exponential of a logit minus the row's maximum is the specification's unnormalised weight. -/
theorem ew_at (k : Fin 64) :
    val_main_v41 (F := Ideal) x0 x1 x4 (ix5 b nw h q k) = ew (lrow x0 x1 x4 b nw h q) k := by
  rw [val_main_v41_apply, val_main_v40_apply, val_main_v39_apply, val_main_v38_apply, idx3839, logits_at, rmax_at]
  rfl

/-- The row sum of the unnormalised weights: the sum starts from the zero word, which is 0. -/
theorem esum_at :
    val_main_v42 (F := Ideal) x0 x1 x4 (ix4 b nw h q) = ∑ k : Fin 64, ew (lrow x0 x1 x4 b nw h q) k := by
  rw [val_main_v42_apply, val_main_cst_5_apply]
  refine (congrArg (· + _) Ideal.ofBits_zero_f32).trans ((zero_add _).trans ?_)
  refine Finset.sum_congr rfl fun k _ => ?_
  rw [idx42, ew_at]

/-- The quotient by the broadcast row sum is the specification's softmax weight. -/
theorem sm_at (k : Fin 64) :
    val_main_v45 (F := Ideal) x0 x1 x4 (ix5 b nw h q k) = sm (lrow x0 x1 x4 b nw h q) k := by
  rw [val_main_v45_apply, val_main_v44_apply, val_main_v43_apply, idx4344, ew_at, esum_at]
  rfl

end Stages

/-- one head of one window in the reference: operations %12 … %46 over the queries %5, keys %8, values %11 and the bias %31 -/
theorem ref_head (x0 : (⟨S8x16384x256, .f32⟩ : BufTy).Contents (Elt Ideal)) (x1 : (⟨S768x256, .f32⟩ : BufTy).Contents (Elt Ideal))
    (x4 : (⟨S127, .f32⟩ : BufTy).Contents (Elt Ideal)) (b : Fin 8) (nw : Fin 256) (h : Fin 8) (q : Fin 64) (d : Fin 32) :
    val_main_v46 (F := Ideal) x0 x1 x4 (ix5 b nw h q d)
      = head (fun q' d' => val_main_v5 (F := Ideal) x0 x1 (ix5 b nw h q' d')) (fun k d' => val_main_v8 (F := Ideal) x0 x1 (ix5 b nw h k d'))
          (fun k d' => val_main_v11 (F := Ideal) x0 x1 (ix5 b nw h k d')) (fun q' k => val_main_v31 (F := Ideal) x4 (ix2 q' k)) q d := by
  rw [val_main_v46_apply]
  refine Finset.sum_congr rfl fun k _ => ?_
  rw [lidx46, ridx46, sm_at]

end Cert.RefSide
end
-- ==== Proof.RefOut.lean ====
/-
  The reference's result array is the layer of its argument arrays.

  The reference works on [8 batch rows, 256 windows, 64 tokens, ·] arrays and reshapes its last value back to
  [8, 16384, 256]: the result at (b, l, o) is the value at (b, l / 64, l % 64, o). That value is the output projection of
  the 256 attention channels of the token (channel `c` is coordinate `c % 32` of head `c / 32`), each head's output being
  the softmax-weighted sum of the window's value rows, and queries, keys and values the three parts of the first
  projection: the window layer of the specification on the rows `(l / 64)·64 + ·` of batch row `b`.
-/
import proofs.«172021_j62835371541012_1_alg».proof.Proof.RefQKV
import proofs.«172021_j62835371541012_1_alg».proof.Proof.RefHead
import proofs.«172021_j62835371541012_1_alg».proof.Proof.Layer

set_option maxRecDepth 16384

noncomputable section

namespace Cert.RefSide

open Cert.ReferenceIdeal Cert.ReferenceIdeal.Read Idealize.ShloMosaic Idealize.ShloMosaic.ValueIdx Cert.WinAttn

/-- The bias table the reference gathers from the relative-position vector, entry by entry. -/
def biasR (x4 : (⟨S127, .f32⟩ : BufTy).Contents (Elt Ideal)) : Fin 64 → Fin 64 → EReal :=
  fun q k => val_main_v31 (F := Ideal) x4 (ix2 q k)

/-- The reference's result at (b, l, o). -/
theorem ref_at (x0 : (⟨S8x16384x256, .f32⟩ : BufTy).Contents (Elt Ideal)) (x1 : (⟨S768x256, .f32⟩ : BufTy).Contents (Elt Ideal))
    (x2 : (⟨S256x256, .f32⟩ : BufTy).Contents (Elt Ideal)) (x3 : (⟨S256, .f32⟩ : BufTy).Contents (Elt Ideal)) (x4 : (⟨S127, .f32⟩ : BufTy).Contents (Elt Ideal))
    (b : Fin 8) (l : Fin 16384) (o : Fin 256) :
    val_main_v53 (F := Ideal) x0 x1 x2 x3 x4 (ix3 b l o) = layerAt x0 x1 x2 x3 (biasR x4) b l o := by
  have hl : l.val < 16384 := l.isLt
  have hb : b.val < 8 := b.isLt
  have ho : o.val < 256 := o.isLt
  rw [val_main_v53_apply]
  have e : idx_main_v53 (ix3 b l o) = ix4 b (⟨l.val / 64, by omega⟩ : Fin 256) (⟨l.val % 64, by omega⟩ : Fin 64) o :=
    funext fun a => Fin.ext (by
      match a with
      | ⟨0, _⟩ => show ((b.val * 16384 + l.val) * 256 + o.val) / 4194304 = b.val; omega
      | ⟨1, _⟩ => show ((b.val * 16384 + l.val) * 256 + o.val) / 16384 % 256 = l.val / 64; omega
      | ⟨2, _⟩ => show ((b.val * 16384 + l.val) * 256 + o.val) / 256 % 64 = l.val % 64; omega
      | ⟨3, _⟩ => show ((b.val * 16384 + l.val) * 256 + o.val) % 256 = o.val; omega)
  rw [e, ref_proj]
  unfold layerAt outW attnW biasR
  simp only [ref_head, ref_q, ref_k, ref_v]

/-- The reference's result array. -/
theorem ref_eq (x0 : (⟨S8x16384x256, .f32⟩ : BufTy).Contents (Elt Ideal)) (x1 : (⟨S768x256, .f32⟩ : BufTy).Contents (Elt Ideal))
    (x2 : (⟨S256x256, .f32⟩ : BufTy).Contents (Elt Ideal)) (x3 : (⟨S256, .f32⟩ : BufTy).Contents (Elt Ideal)) (x4 : (⟨S127, .f32⟩ : BufTy).Contents (Elt Ideal)) :
    val_main_v53 (F := Ideal) x0 x1 x2 x3 x4 = layer x0 x1 x2 x3 (biasR x4) := by
  funext i
  exact (congrArg (val_main_v53 (F := Ideal) x0 x1 x2 x3 x4) (eq_ix3 i)).trans (ref_at x0 x1 x2 x3 x4 (i 0) (i 1) (i 2))

end Cert.RefSide

end
-- ==== Proof.BiasTable.lean ====
/-
  The bias table is the same in both programs.

  Both programs build the 64 × 64 table of relative positions `k - q + 63` from an iota (with the wrap of a negative index
  that a gather's index normalisation adds, never taken here) and gather the relative-position vector at it. The kernel's
  program does so on the host before its region and stages the table; the reference does so in the middle of its run. The two
  texts are the same operations of the same vector, so the staged table is the reference's table.
-/
import proofs.«172021_j62835371541012_1_alg».proof.Proof.KArray
import proofs.«172021_j62835371541012_1_alg».proof.Proof.RefOut
import Idealize.ShloMosaic.Lib.StableHlo.Run

set_option maxRecDepth 16384

noncomputable section

namespace Cert.Proof

open Idealize.ShloMosaic Idealize.ShloMosaic.TcCoe Idealize.SL.Sem Idealize.ShloMosaic.StableHlo Idealize.ShloMosaic.ValueIdx

set_option maxHeartbeats 4000000 in
/-- The table the kernel's region finds staged is the reference's gathered table of the same vector. -/
theorem bias_arr (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v16 : Cert.KernelIdeal.S64x64.Idx → EReal)
      = Cert.ReferenceIdeal.Read.val_main_v31 (F := Ideal) (m ((c : Thread Cert.KernelIdeal.nD Cert.KernelIdeal.τ).loc Cert.KernelIdeal.main_arg4)) := by
  dsimp only [Cert.KernelIdeal.Gen.V, Cert.KernelIdeal.Gen.hostOps0]
  after_results_simp
  unfold Cert.ReferenceIdeal.Read.val_main_v31 Cert.ReferenceIdeal.Read.val_main_v30 Cert.ReferenceIdeal.Read.val_main_v29 Cert.ReferenceIdeal.Read.val_main_v28 Cert.ReferenceIdeal.Read.val_main_v27 Cert.ReferenceIdeal.Read.val_main_v26 Cert.ReferenceIdeal.Read.val_main_v25 Cert.ReferenceIdeal.Read.val_main_v24 Cert.ReferenceIdeal.Read.val_main_v23 Cert.ReferenceIdeal.Read.val_main_v22 Cert.ReferenceIdeal.Read.val_main_v21 Cert.ReferenceIdeal.Read.val_main_v20 Cert.ReferenceIdeal.Read.val_main_v19 Cert.ReferenceIdeal.Read.val_main_v18 Cert.ReferenceIdeal.Read.val_main_v17 Cert.ReferenceIdeal.Read.val_main_v16 Cert.ReferenceIdeal.Read.val_main_v15 Cert.ReferenceIdeal.Read.val_main_c Cert.ReferenceIdeal.Read.val_main_c_0 Cert.ReferenceIdeal.Read.val_main_c_1 Cert.ReferenceIdeal.Read.val_main_c_2
  rfl

/-- Entry by entry. -/
theorem bias_eq (m : (ℓ : Loc Cert.KernelIdeal.nD Cert.KernelIdeal.τ Cert.KernelIdeal.sig) → Buf (Elt Ideal) ℓ) (c : Dev Cert.KernelIdeal.nD) :
    Cert.KSide.biasK m c = Cert.RefSide.biasR (m ((c : Thread Cert.KernelIdeal.nD Cert.KernelIdeal.τ).loc Cert.KernelIdeal.main_arg4)) := by
  funext q k
  show (Cert.KernelIdeal.Gen.V m c Cert.KernelIdeal.main_v16 : Cert.KernelIdeal.S64x64.Idx → EReal) (ix2 q k) = _
  rw [bias_arr]
  rfl

end Cert.Proof

end
-- ==== Proof.lean ====
/-
  Local-window multi-head attention: the Pallas kernel against its jnp reference, on the extended reals.

  Both programs compute, for every batch row `b`, token `l` and output channel `o`, the window layer of Proof/Spec.lean on
  the 64 token rows of window `l / 64` (Proof/Layer.lean states it for the whole arrays): the first projection gives each
  token its queries, keys and values in 8 heads of 32 coordinates; inside a head the logits are the scaled dot products plus a
  relative-position bias, made into weights by the stable softmax; the heads' weighted value sums are laid side by side and
  projected once more, plus a bias vector.

  The reference does this on whole [8, 256, 64, ·] arrays (Proof/RefQKV.lean, Proof/RefHead.lean, Proof/RefOut.lean read its
  operations at an entry). The kernel does it block by block, a block being 32 whole windows of one batch row: its projected
  block (Proof/KQkv.lean), its eight heads (Proof/KHeads.lean), its last stage (Proof/KProj.lean), the block it leaves
  (Proof/KBlock.lean) and the result array the 64 blocks tile (Proof/KArray.lean); Proof/BiasTable.lean says the staged bias table is the reference's. The kernel narrows some values to a shorter
  float format and multiplies by the transposed weight matrices, which the host prepares; on the extended reals a change of
  format is the identity and a product is a plain finite sum, so the two sides are the same sums, maxima, exponentials and
  quotients, and no finiteness of the inputs is needed. The bias table is the same gather of the relative-position vector in
  both programs.
-/
import proofs.«172021_j62835371541012_1_alg».proof.Defs
import proofs.«172021_j62835371541012_1_alg».proof.Proof.Gen.Kernel
import proofs.«172021_j62835371541012_1_alg».proof.Proof.Gen.Kernel.Skeleton
import proofs.«172021_j62835371541012_1_alg».proof.Proof.Gen.Kernel.Launch
import proofs.«172021_j62835371541012_1_alg».proof.Proof.Gen.Kernel.Points
import proofs.«172021_j62835371541012_1_alg».proof.Proof.Gen.Kernel.Frame
import proofs.«172021_j62835371541012_1_alg».proof.Proof.Gen.KernelIdeal
import proofs.«172021_j62835371541012_1_alg».proof.Proof.Gen.KernelIdeal.Skeleton
import proofs.«172021_j62835371541012_1_alg».proof.Proof.Gen.KernelIdeal.Launch
import proofs.«172021_j62835371541012_1_alg».proof.Proof.Gen.KernelIdeal.Points
import proofs.«172021_j62835371541012_1_alg».proof.Proof.Gen.KernelIdeal.Frame
import proofs.«172021_j62835371541012_1_alg».proof.Proof.Gen.ReferenceIdeal
import proofs.«172021_j62835371541012_1_alg».proof.Proof.Gen.Pre_finite_inputs
import proofs.«172021_j62835371541012_1_alg».proof.Proof.Gen.KernelIdeal.Value
import proofs.«172021_j62835371541012_1_alg».proof.Proof.Gen.ReferenceIdeal.Run
import proofs.«172021_j62835371541012_1_alg».proof.Proof.Gen.ReferenceIdeal.Read
import proofs.«172021_j62835371541012_1_alg».proof.Proof.KArray
import proofs.«172021_j62835371541012_1_alg».proof.Proof.RefOut
import proofs.«172021_j62835371541012_1_alg».proof.Proof.BiasTable
import Idealize.ShloMosaic.Adequacy
import Idealize.ShloMosaic.Init
import Idealize.ShloMosaic.Lib.StableHlo.Run

set_option maxRecDepth 16384

noncomputable section

namespace Cert.Proof

open Idealize.ShloMosaic Idealize.ShloMosaic.TcCoe Idealize.SL.Sem Idealize.ShloMosaic.StableHlo Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the layer of the argument arrays. -/
theorem algebraic : Cert.algebraic_KernelIdeal_ReferenceIdeal := by
  intro m ρ m' ρ' _ hagree
  refine ⟨fun c => Cert.KSide.GK m c, Cert.KSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, Cert.RefSide.ref_eq, (hagree c).1, (hagree c).2.1, (hagree c).2.2.1,
    (hagree c).2.2.2.1, (hagree c).2.2.2.2]
  show _ = Cert.KSide.GK m c
  unfold Cert.KSide.GK
  rw [bias_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
